-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel

variable [Facts]

def fn {F : FTy → Type} [FloatOps F] (main_arg0 : FVec F S16384x32x64 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  main_v3
-- ==== Kernel.lean ====
abbrev S16384x32x64 : Shape := ⟨3, ![16384, 32, 64]⟩
abbrev S496 : Shape := ⟨1, ![496]⟩
abbrev S16384x32x32 : Shape := ⟨3, ![16384, 32, 32]⟩
abbrev S512x32x64 : Shape := ⟨3, ![512, 32, 64]⟩
abbrev S512x32x32 : Shape := ⟨3, ![512, 32, 32]⟩
abbrev S_ : Shape := ⟨0, ![]⟩
abbrev S496x1 : Shape := ⟨2, ![496, 1]⟩
abbrev S496x2 : Shape := ⟨2, ![496, 2]⟩
abbrev S16384x496 : Shape := ⟨2, ![16384, 496]⟩
abbrev S16384x496x1 : Shape := ⟨3, ![16384, 496, 1]⟩

abbrev nBuf : Space → Nat
  | .hbm => 19
  | .vmem => 4
  | .smem => 0
  | _ => 0

abbrev bufTy : (tb : Table) → Fin (tcTables nBuf tb) → BufTy
  | .hbm, ⟨0, _⟩ => ⟨S16384x32x64, .f32⟩
  | .hbm, ⟨1, _⟩ => ⟨S496, .i32⟩
  | .hbm, ⟨2, _⟩ => ⟨S496, .i1⟩
  | .hbm, ⟨3, _⟩ => ⟨S496, .i32⟩
  | .hbm, ⟨4, _⟩ => ⟨S496, .i1⟩
  | .hbm, ⟨5, _⟩ => ⟨S16384x32x32, .f32⟩
  | .hbm, ⟨6, _⟩ => ⟨S_, .i32⟩
  | .hbm, ⟨7, _⟩ => ⟨S496, .i32⟩
  | .hbm, ⟨8, _⟩ => ⟨S496, .i32⟩
  | .hbm, ⟨9, _⟩ => ⟨S496, .i32⟩
  | .hbm, ⟨10, _⟩ => ⟨S_, .i32⟩
  | .hbm, ⟨11, _⟩ => ⟨S496, .i32⟩
  | .hbm, ⟨12, _⟩ => ⟨S496, .i32⟩
  | .hbm, ⟨13, _⟩ => ⟨S496, .i32⟩
  | .hbm, ⟨14, _⟩ => ⟨S496x1, .i32⟩
  | .hbm, ⟨15, _⟩ => ⟨S496x1, .i32⟩
  | .hbm, ⟨16, _⟩ => ⟨S496x2, .i32⟩
  | .hbm, ⟨17, _⟩ => ⟨S16384x496, .f32⟩
  | .hbm, ⟨18, _⟩ => ⟨S16384x496x1, .f32⟩
  | .local _ .vmem, ⟨0, _⟩ => ⟨S512x32x64, .f32⟩
  | .local _ .vmem, ⟨1, _⟩ => ⟨S512x32x64, .f32⟩
  | .local _ .vmem, ⟨2, _⟩ => ⟨S512x32x32, .f32⟩
  | .local _ .vmem, ⟨3, _⟩ => ⟨S512x32x32, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_v0 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x32x64_S512x32x64_0_0_0 : ∀ a, (![0, 0, 0] : Fin 3 → Nat) a + S512x32x64.size a ≤ S512x32x64.size a
  h_S512x32x64 : 0 < S512x32x64.numel
  bitsLt_bf16_f32 : FTy.bits .bf16 < FTy.bits .f32
  inb_S512x32x32_S512x32x32_0_0_0 : ∀ a, (![0, 0, 0] : Fin 3 → Nat) a + S512x32x32.size a ≤ S512x32x32.size a
  h_S512x32x32 : 0 < S512x32x32.numel
  bcast_S_S496 : S_.BroadcastsInDim S496 (![] : Fin 0 → Fin S496.rank)
  bcast_S496_S496x1_0 : S496.BroadcastsInDim S496x1 (![0] : Fin 1 → Fin S496x1.rank)
  concatenates_S496x1_S496x1_S496x2_d1 : Shape.Concatenates [S496x1, S496x1] S496x2 1
  bcast_S16384x496_S16384x496x1_0_1 : S16384x496.BroadcastsInDim S16384x496x1 (![0, 1] : Fin 2 → Fin S16384x496x1.rank)
  dot_S512x32x64_S512x32x64_S512x32x32_2_2_1_1_0_0_wf : DotDims.WF S512x32x64 S512x32x64 S512x32x32 [2] [2] [1] [1] [0] [0]
  gather_S16384x32x32_S496x2_S16384x496_0_12_n_n_12_1_1638411_wf : GatherDims.WF S16384x32x32 S496x2 S16384x496 [0] [1, 2] [] [1, 2] [] 1 ![16384, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x64.size a ≤ S16384x32x64.size a
  hwx0_0 : ∀ i : grid0.Coords, EltTy.bits .f32 = 32 ∨ (Rect.block (s := S16384x32x64) S512x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x32.size a ≤ S16384x32x32.size a
  hwx0_1 : ∀ i : grid0.Coords, EltTy.bits .f32 = 32 ∨ (Rect.block (s := S16384x32x32) S512x32x32.size (cc0_transform_1 i) (hinb0_1 i)).WholeWords (EltTy.packing .f32)

variable [Facts₀]

def dot_S512x32x64_S512x32x64_S512x32x32_2_2_1_1_0_0 : DotDims S512x32x64 S512x32x64 S512x32x32 where
  lhsContracting := [2]
  rhsContracting := [2]
  lhsNonContracting := [1]
  rhsNonContracting := [1]
  lhsBatch := [0]
  rhsBatch := [0]
  wf := dot_S512x32x64_S512x32x64_S512x32x32_2_2_1_1_0_0_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf

abbrev win0_0 : Pipeline.Window sig grid0 :=
  Pipeline.Window.ofSpec (Memref.whole main_arg0) S512x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x32x64 : Shape := ⟨3, ![16384, 32, 64]⟩
abbrev S16384x32x32 : Shape := ⟨3, ![16384, 32, 32]⟩
abbrev S_ : Shape := ⟨0, ![]⟩
abbrev S32x32 : Shape := ⟨2, ![32, 32]⟩
abbrev S1024 : Shape := ⟨1, ![1024]⟩
abbrev S496 : Shape := ⟨1, ![496]⟩
abbrev S1024x1 : Shape := ⟨2, ![1024, 1]⟩
abbrev S496x1 : Shape := ⟨2, ![496, 1]⟩
abbrev S496x2 : Shape := ⟨2, ![496, 2]⟩
abbrev S16384x496 : Shape := ⟨2, ![16384, 496]⟩
abbrev S16384x496x1 : Shape := ⟨3, ![16384, 496, 1]⟩

abbrev nBuf : Space → Nat
  | .hbm => 138
  | .vmem => 0
  | .smem => 0
  | _ => 0

abbrev hbmTy0_0 (i : Nat) : BufTy := match i % 128 with
  | 0 => ⟨S16384x32x64, .f32⟩
  | 1 => ⟨S16384x32x32, .f32⟩
  | 2 => ⟨S_, .f32⟩
  | 3 => ⟨S32x32, .f32⟩
  | 4 => ⟨S32x32, .i32⟩
  | 5 => ⟨S_, .i32⟩
  | 6 => ⟨S32x32, .i32⟩
  | 7 => ⟨S32x32, .i32⟩
  | 8 => ⟨S32x32, .i32⟩
  | 9 => ⟨S32x32, .i1⟩
  | 10 => ⟨S_, .f32⟩
  | 11 => ⟨S32x32, .f32⟩
  | 12 => ⟨S32x32, .f32⟩
  | 13 => ⟨S_, .f32⟩
  | 14 => ⟨S32x32, .f32⟩
  | 15 => ⟨S32x32, .i1⟩
  | 16 => ⟨S1024, .i1⟩
  | 17 => ⟨S1024, .i32⟩
  | 18 => ⟨S_, .i32⟩
  | 19 => ⟨S_, .i32⟩
  | 20 => ⟨S1024, .i32⟩
  | 21 => ⟨S_, .i32⟩
  | 22 => ⟨S496, .i32⟩
  | 23 => ⟨S_, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S_, .i32⟩
  | 36 => ⟨S1024, .i32⟩
  | 37 => ⟨S496, .i32⟩
  | 38 => ⟨S_, .i32⟩
  | 39 => ⟨S_, .i32⟩
  | 40 => ⟨S496, .i32⟩
  | 41 => ⟨S_, .i32⟩
  | 42 => ⟨S496, .i32⟩
  | 43 => ⟨S496, .i32⟩
  | 44 => ⟨S496, .i32⟩
  | 45 => ⟨S_, .i32⟩
  | 46 => ⟨S496, .i32⟩
  | 47 => ⟨S496, .i1⟩
  | 48 => ⟨S496, .i32⟩
  | 49 => ⟨S496, .i32⟩
  | 50 => ⟨S_, .i32⟩
  | 51 => ⟨S496, .i32⟩
  | 52 => ⟨S496, .i1⟩
  | 53 => ⟨S496, .i1⟩
  | 54 => ⟨S_, .i32⟩
  | 55 => ⟨S496, .i32⟩
  | 56 => ⟨S496, .i32⟩
  | 57 => ⟨S496, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S496, .i32⟩
  | 65 => ⟨S496, .i32⟩
  | 66 => ⟨S_, .i32⟩
  | 67 => ⟨S496, .i32⟩
  | 68 => ⟨S496, .i1⟩
  | 69 => ⟨S_, .i32⟩
  | 70 => ⟨S496, .i32⟩
  | 71 => ⟨S496, .i1⟩
  | 72 => ⟨S_, .i32⟩
  | 73 => ⟨S_, .i1⟩
  | 74 => ⟨S496, .i1⟩
  | 75 => ⟨S496, .i1⟩
  | 76 => ⟨S496, .i1⟩
  | 77 => ⟨S496, .i32⟩
  | 78 => ⟨S496, .i32⟩
  | 79 => ⟨S496, .i32⟩
  | 80 => ⟨S_, .i32⟩
  | 81 => ⟨S496, .i32⟩
  | 82 => ⟨S496, .i32⟩
  | 83 => ⟨S496, .i32⟩
  | 84 => ⟨S_, .i32⟩
  | 85 => ⟨S496, .i32⟩
  | 86 => ⟨S496, .i1⟩
  | 87 => ⟨S496, .i32⟩
  | 88 => ⟨S496, .i32⟩
  | 89 => ⟨S_, .i32⟩
  | 90 => ⟨S496, .i32⟩
  | 91 => ⟨S496, .i1⟩
  | 92 => ⟨S496, .i1⟩
  | 93 => ⟨S_, .i32⟩
  | 94 => ⟨S496, .i32⟩
  | 95 => ⟨S496, .i32⟩
  | 96 => ⟨S496, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S496, .i32⟩
  | 104 => ⟨S496, .i32⟩
  | 105 => ⟨S_, .i32⟩
  | 106 => ⟨S496, .i32⟩
  | 107 => ⟨S496, .i1⟩
  | 108 => ⟨S_, .i32⟩
  | 109 => ⟨S496, .i32⟩
  | 110 => ⟨S496, .i1⟩
  | 111 => ⟨S_, .i32⟩
  | 112 => ⟨S_, .i1⟩
  | 113 => ⟨S496, .i1⟩
  | 114 => ⟨S496, .i1⟩
  | 115 => ⟨S496, .i1⟩
  | 116 => ⟨S496, .i32⟩
  | 117 => ⟨S496, .i32⟩
  | 118 => ⟨S496, .i32⟩
  | 119 => ⟨S_, .i32⟩
  | 120 => ⟨S496, .i32⟩
  | 121 => ⟨S496, .i1⟩
  | 122 => ⟨S_, .i32⟩
  | 123 => ⟨S496, .i32⟩
  | 124 => ⟨S496, .i32⟩
  | 125 => ⟨S496, .i32⟩
  | 126 => ⟨S_, .i32⟩
  | 127 => ⟨S496, .i32⟩
  | _ => ⟨S16384x32x64, .f32⟩

abbrev hbmTy0_1 (i : Nat) : BufTy := match i % 128 with
  | 0 => ⟨S496, .i1⟩
  | 1 => ⟨S_, .i32⟩
  | 2 => ⟨S496, .i32⟩
  | 3 => ⟨S496, .i32⟩
  | 4 => ⟨S496, .i32⟩
  | 5 => ⟨S496x1, .i32⟩
  | 6 => ⟨S496x1, .i32⟩
  | 7 => ⟨S496x2, .i32⟩
  | 8 => ⟨S16384x496, .f32⟩
  | 9 => ⟨S16384x496x1, .f32⟩
  | _ => ⟨S16384x32x64, .f32⟩

abbrev hbmTy (i : Nat) : BufTy := match i / 128 with
  | 0 => hbmTy0_0 i
  | 1 => hbmTy0_1 i
  | _ => ⟨S16384x32x64, .f32⟩

abbrev bufTy : (tb : Table) → Fin (tcTables nBuf tb) → BufTy
  | .hbm, ⟨i, _⟩ => hbmTy i
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S496 : S_.BroadcastsInDim S496 (![] : Fin 0 → Fin S496.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S496_S496_w496s1p495_0 : S496.ReduceWindows (![496] : Fin 1 → Nat) ![1] ![495] ![0] S496
  bcast_S496_S496x1_0 : S496.BroadcastsInDim S496x1 (![0] : Fin 1 → Fin S496x1.rank)
  concatenates_S496x1_S496x1_S496x2_d1 : Shape.Concatenates [S496x1, S496x1] S496x2 1
  bcast_S16384x496_S16384x496x1_0_1 : S16384x496.BroadcastsInDim S16384x496x1 (![0, 1] : Fin 2 → Fin S16384x496x1.rank)
  dot_S16384x32x64_S16384x32x64_S16384x32x32_2_2_1_1_0_0_wf : DotDims.WF S16384x32x64 S16384x32x64 S16384x32x32 [2] [2] [1] [1] [0] [0]
  scatter_S496_S1024x1_S1024_n_0_0_1_wf : ScatterDims.WF S496 S1024x1 S1024 [] [0] [0] 1
  gather_S16384x32x32_S496x2_S16384x496_0_12_n_n_12_1_1638411_wf : GatherDims.WF S16384x32x32 S496x2 S16384x496 [0] [1, 2] [] [1, 2] [] 1 ![16384, 1, 1]

variable [Facts₀]

def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def scatter_S496_S1024x1_S1024_n_0_0_1 : ScatterDims S496 S1024x1 S1024 where
  updateWindowDims := []
  insertedWindowDims := [0]
  scatterDimsToOperandDims := [0]
  indexVectorDim := 1
  wf := scatter_S496_S1024x1_S1024_n_0_0_1_wf
def gather_S16384x32x32_S496x2_S16384x496_0_12_n_n_12_1_1638411 : GatherDims S16384x32x32 S496x2 S16384x496 where
  offsetDims := [0]
  collapsedSliceDims := [1, 2]
  operandBatchingDims := []
  startIndicesBatchingDims := []
  startIndexMap := [1, 2]
  indexVectorDim := 1
  sliceSizes := ![16384, 1, 1]
  wf := gather_S16384x32x32_S496x2_S16384x496_0_12_n_n_12_1_1638411_wf

class Facts : Prop extends Facts₀ where

variable [Facts]
-- ==== Proof.Spec.lean ====
/-
  The common value of the two programs.

  For an array `x` of shape [16384, 32, 64] (a batch of 16384 matrices with 32 rows of 64 entries) the Gram array
  of shape [16384, 32, 32] holds at (b, n, m) the inner product of rows n and m of matrix b,
  `∑ d, x(b,n,d) · x(b,m,d)`, taken in the extended reals. Both programs form this array (one block of 512
  matrices at a time, or all at once) and then pick the entries (n, m) with n < m in row-major order.
-/
import Idealize.ShloMosaic.PureOps.Ideal
import Idealize.ShloMosaic.Lib.ValueIdx

noncomputable section

namespace Cert.Gram

open Idealize.ShloMosaic Idealize.ShloMosaic.ValueIdx

/-- the argument's shape -/
abbrev SX : Shape := ⟨3, ![16384, 32, 64]⟩
/-- the Gram array's shape -/
abbrev SG : Shape := ⟨3, ![16384, 32, 32]⟩

/-- The inner product of rows `n` and `m` of matrix `b`. -/
def gramAt (x : SX.Idx → EReal) (b : Fin 16384) (n m : Fin 32) : EReal :=
  ∑ d : Fin 64, x (ix3 b n d) * x (ix3 b m d)

/-- The Gram array of `x`. -/
def gram (x : SX.Idx → EReal) : SG.Idx → EReal := fun i => gramAt x (i 0) (i 1) (i 2)

theorem gram_ix3 (x : SX.Idx → EReal) (b : Fin 16384) (n m : Fin 32) : gram x (ix3 b n m) = gramAt x b n m := rfl

end Cert.Gram

end
-- ==== Proof.KernelDefs.lean ====
/-
  The kernel program's result as one term of its argument: the Gram array, gathered at the program's two literal
  tables of row and column numbers (each first passed through the wrap-around of negative numbers, which its literal
  all-false mask never takes), with a unit axis appended.
-/
import proofs.«111796_j20126216749638_2_alg».proof.KernelIdeal
import proofs.«111796_j20126216749638_2_alg».proof.Proof.Gen.KernelIdeal
import proofs.«111796_j20126216749638_2_alg».proof.Proof.Spec

noncomputable section

namespace Cert.KernelIdeal.Hand

open Idealize.ShloMosaic Cert.KernelIdeal Cert.KernelIdeal.Facts₀

/-- the literal table of row numbers, as an array -/
def rowsLit : IVec S496 32 := fun i => lit0 (S496.rowMajor i)
/-- the literal table of column numbers, as an array -/
def colsLit : IVec S496 32 := fun i => lit1 (S496.rowMajor i)

/-- a table with 32 added where the (all-false) mask says so -/
def wrap (t : IVec S496 32) : IVec S496 32 :=
  select (constantI S496 1 0#1) (addi t (broadcastInDim S496 ![] bcast_S_S496 (constantI S_ 32 32#32))) t

/-- the row numbers the gather reads -/
def rowsK : IVec S496 32 := wrap rowsLit
/-- the column numbers the gather reads -/
def colsK : IVec S496 32 := wrap colsLit

/-- two columns side by side: the gather's start indices -/
def pairs (r c : IVec S496 32) : IVec S496x2 32 :=
  concatenate S496x2 1 [⟨S496x1, broadcastInDim S496x1 ![0] bcast_S496_S496x1_0 r⟩,
    ⟨S496x1, broadcastInDim S496x1 ![0] bcast_S496_S496x1_0 c⟩] concatenates_S496x1_S496x1_S496x2_d1

/-- the entries of a [16384, 32, 32] array at the listed (row, column) pairs, with a unit axis appended -/
def pick (g : S16384x32x32.Idx → EReal) (idx : IVec S496x2 32) : S16384x496x1.Idx → EReal :=
  broadcastInDim S16384x496x1 ![0, 1] bcast_S16384x496_S16384x496x1_0_1
    (Host.gather gather_S16384x32x32_S496x2_S16384x496_0_12_n_n_12_1_1638411 g idx)

/-- the kernel program's result -/
def out (x : S16384x32x64.Idx → EReal) : S16384x496x1.Idx → EReal := pick (Cert.Gram.gram x) (pairs rowsK colsK)

end Cert.KernelIdeal.Hand

end
-- ==== Proof.GramDot.lean ====
/-
  The two contractions of the certificate read at an index, at the exact-real values.

  Both programs contract the last axis of an array of matrices with itself, matrix by matrix (batch axis 0 of both
  operands, the rows of both kept): the kernel one block of 512 matrices at a time into a zero accumulator, the
  reference all 16384 at once. Read at (b, n, m) either is the inner product of rows n and m of matrix b,
  ∑ d, x(b,n,d) · x(b,m,d), in the extended reals; so the reference's contraction is the Gram array.
-/
import proofs.«111796_j20126216749638_2_alg».proof.KernelIdeal
import proofs.«111796_j20126216749638_2_alg».proof.ReferenceIdeal
import proofs.«111796_j20126216749638_2_alg».proof.Proof.Gen.KernelIdeal
import proofs.«111796_j20126216749638_2_alg».proof.Proof.Gen.ReferenceIdeal
import proofs.«111796_j20126216749638_2_alg».proof.Proof.Spec
import Idealize.ShloMosaic.PureOps.Ideal.Laws
import Idealize.ShloMosaic.Lib.ValueIdx

noncomputable section

open Idealize.ShloMosaic Idealize.ShloMosaic.ValueIdx

namespace Cert.Gram.Dot

variable {G m n k : Nat}

/-- The dimension numbers of a product of two stacks of matrices, matrix by matrix, each with the other's transpose:
    batch axes 0 and 0, contracting axes 2 and 2, kept axes 1 and 1. -/
abbrev rowsDims (w : DotDims.WF ⟨3, ![G, m, k]⟩ ⟨3, ![G, n, k]⟩ ⟨3, ![G, m, n]⟩ [2] [2] [1] [1] [0] [0]) :
    DotDims ⟨3, ![G, m, k]⟩ ⟨3, ![G, n, k]⟩ ⟨3, ![G, m, n]⟩ := ⟨[2], [2], [1], [1], [0], [0], w⟩

/-- At result index (g, a, b) and contraction coordinate c the left operand is read at (g, a, c). -/
theorem lhsIdx_rows (w : DotDims.WF ⟨3, ![G, m, k]⟩ ⟨3, ![G, n, k]⟩ ⟨3, ![G, m, n]⟩ [2] [2] [1] [1] [0] [0])
    (g : Fin G) (a : Fin m) (b : Fin n) (c : Fin k) :
    (rowsDims w).lhsIdx (ix3 g a b) ((contrEquiv1 (rowsDims w) k rfl rfl).symm c) = ix3 g a c := by
  have c3 := contrEquiv1_symm_val (rowsDims w) k rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- At result index (g, a, b) and contraction coordinate c the right operand is read at (g, b, c). -/
theorem rhsIdx_rows (w : DotDims.WF ⟨3, ![G, m, k]⟩ ⟨3, ![G, n, k]⟩ ⟨3, ![G, m, n]⟩ [2] [2] [1] [1] [0] [0])
    (g : Fin G) (a : Fin m) (b : Fin n) (c : Fin k) :
    (rowsDims w).rhsIdx (ix3 g a b) ((contrEquiv1 (rowsDims w) k rfl rfl).symm c) = ix3 g b c := by
  have c3 := contrEquiv1_symm_val (rowsDims w) k rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum, re-indexed by the contracted coordinate. -/
theorem sum_rows {φ₁ φ₂ : FTy} (w : DotDims.WF ⟨3, ![G, m, k]⟩ ⟨3, ![G, n, k]⟩ ⟨3, ![G, m, n]⟩ [2] [2] [1] [1] [0] [0])
    (A : FVec Ideal ⟨3, ![G, m, k]⟩ φ₁) (B : FVec Ideal ⟨3, ![G, n, k]⟩ φ₂) (g : Fin G) (a : Fin m) (b : Fin n) :
    ∑ q : (rowsDims w).contr.Idx, A ((rowsDims w).lhsIdx (ix3 g a b) q) * B ((rowsDims w).rhsIdx (ix3 g a b) q)
      = ∑ c : Fin k, A (ix3 g a c) * B (ix3 g b c) := by
  rw [← Equiv.sum_comp (contrEquiv1 (rowsDims w) k rfl rfl).symm]
  refine Finset.sum_congr rfl fun c _ => ?_
  rw [lhsIdx_rows, rhsIdx_rows]

end Cert.Gram.Dot

/-- the kernel body's batched matrix product of a block of 512 matrices with itself (contracting the last axis of both
    operands, batch axis 0) into the zero accumulator, read at (b, n, m) -/
theorem Cert.KernelIdeal.Hand.matmul_block (x0 : FVec Ideal Cert.KernelIdeal.S512x32x64 .bf16) (b : Fin 512) (n m : Fin 32) :
    matmul (F := Ideal) Cert.KernelIdeal.dot_S512x32x64_S512x32x64_S512x32x32_2_2_1_1_0_0 none x0 x0
        (constant (F := Ideal) Cert.KernelIdeal.S512x32x32 .f32 0x00000000#32) (ix3 b n m)
      = ∑ d : Fin 64, x0 (ix3 b n d) * x0 (ix3 b m d) := by
  refine (Ideal.matmul_constant_zero_apply _ none x0 x0 (ix3 b n m)).trans ?_
  exact Cert.Gram.Dot.sum_rows Cert.KernelIdeal.Facts₀.dot_S512x32x64_S512x32x64_S512x32x32_2_2_1_1_0_0_wf x0 x0 b n m

/-- the reference's whole batched contraction is the Gram array -/
theorem Cert.ReferenceIdeal.Hand.dotGeneral_eq_gram (x : FVec Ideal Cert.ReferenceIdeal.S16384x32x64 .f32) :
    Host.dotGeneral (F := Ideal) Cert.ReferenceIdeal.dot_S16384x32x64_S16384x32x64_S16384x32x32_2_2_1_1_0_0 none x x = Cert.Gram.gram x := by
  funext i
  obtain ⟨b, n, m, rfl⟩ : ∃ (b : Fin 16384) (n m : Fin 32), i = ix3 b n m := ⟨i 0, i 1, i 2, eq_ix3 i⟩
  refine (Ideal.dotGeneral_apply _ none _ x x (ix3 b n m)).trans ?_
  exact Cert.Gram.Dot.sum_rows Cert.ReferenceIdeal.Facts₀.dot_S16384x32x64_S16384x32x64_S16384x32x32_2_2_1_1_0_0_wf x x b n m

end
-- ==== Proof.KernelGramArray.lean ====
/-
  The kernel's result array after its one region is the Gram array of the argument.

  The region walks 32 grid points. Point t reads block t of the argument — the 512 matrices numbered 512·t … 512·t + 511,
  each of 32 rows of 64 entries — and writes block t of the result array: for each of its matrices b and each pair of rows
  (n, k) the inner product ∑ d, x(b,n,d) · x(b,k,d) of the two rows (the rounding of the block to bf16 on the way into the
  product is the identity at the exact-real values, and the accumulator starts at zero). Entry (b, n, k) of a block is entry
  (512·t + b, n, k) of the array on both sides, so what point t writes back is block t of the Gram array; matrix B of the
  result lies in the block of point B / 512, every point writes its block back, and so the blocks cover the array: after
  the last point the result array is the Gram array.
-/
import proofs.«111796_j20126216749638_2_alg».proof.Proof.Gen.KernelIdeal.Frame
import proofs.«111796_j20126216749638_2_alg».proof.Proof.Spec
import proofs.«111796_j20126216749638_2_alg».proof.Proof.GramDot
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-- the offsets of the body's one load and one store: the corner of the block -/
theorem zero3 : (![0, 0, 0] : Fin 3 → Nat) = fun _ => 0 := funext fun a => by fin_cases a <;> rfl

/-- Both index maps send grid point `t` to block (t, 0, 0): decided over the 32 points. -/
theorem blockIndex : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 32 := by
  have h := t.isLt
  have hN : cfg0.N = 32 := N_0
  omega

/-- the number, among all 16384 matrices, of matrix `b` of block `t` -/
def batchOf (t : Fin cfg0.N) (b : Fin 512) : Fin 16384 := ⟨512 * t.val + b.val, by have := point_lt t; omega⟩

/-- The argument's block at point `t`, read at (b, n, d), is the argument at (512·t + b, n, d): no host operation before
    the region writes the argument, and a block's coordinate is the block index times the block size plus the coordinate
    inside the block. -/
theorem iblk_at (c : Dev nD) (t : Fin cfg0.N) (b : Fin 512) (n : Fin 32) (d : Fin 64) :
    (iblk m c 0 t : Vec Ideal S512x32x64 .f32) (ix3 b n d)
      = (m ((c : Thread nD τ).loc main_arg0) : S16384x32x64.Idx → EReal) (ix3 (batchOf t b) n d) := by
  obtain ⟨e0, e1, e2, -, -, -⟩ := blockIndex t
  unfold iblk
  rw [View.read_apply]
  show V m c main_arg0 _ = _
  rw [V_main_arg0]
  refine congrArg _ ?_
  funext a
  apply Fin.ext
  match a with
  | ⟨0, _⟩ => show win0_0.index t (0 : Fin 3) * 512 + 1 * b.val = 512 * t.val + b.val; omega
  | ⟨1, _⟩ => show win0_0.index t (1 : Fin 3) * 32 + 1 * n.val = n.val; omega
  | ⟨2, _⟩ => show win0_0.index t (2 : Fin 3) * 64 + 1 * d.val = d.val; omega

/-- Entry (b, n, k) of the result's block at point `t` is entry (512·t + b, n, k) of the result array. -/
theorem emb_at (t : Fin cfg0.N) (b : Fin 512) (n k : Fin 32) :
    (((cfg0.win 1).blk t).view.emb (ix3 b n k) : S16384x32x32.Idx) = ix3 (batchOf t b) n k := by
  obtain ⟨-, -, -, e0, e1, e2⟩ := blockIndex t
  funext a
  apply Fin.ext
  match a with
  | ⟨0, _⟩ => show win0_1.index t (0 : Fin 3) * 512 + 1 * b.val = 512 * t.val + b.val; omega
  | ⟨1, _⟩ => show win0_1.index t (1 : Fin 3) * 32 + 1 * n.val = n.val; omega
  | ⟨2, _⟩ => show win0_1.index t (2 : Fin 3) * 32 + 1 * k.val = k.val; omega

/-- What the body stores, read at (b, n, k): the inner product of rows n and k of matrix b of the block it loaded. -/
theorem pay_at (x0 : Vec Ideal S512x32x64 .f32) (b : Fin 512) (n k : Fin 32) :
    k0_pay1 (F := Ideal) x0 (ix3 b n k) = ∑ d : Fin 64, x0 (ix3 b n d) * x0 (ix3 b k d) := by
  unfold k0_pay1
  exact matmul_block (truncf .bf16 x0 bitsLt_bf16_f32) b n k

/-- What the body stores at point `t`, entry by entry, is the Gram array at that entry's place in the result array. -/
theorem block_gram (c : Dev nD) (t : Fin cfg0.N) (j : S512x32x32.Idx) :
    k0_pay1 (F := Ideal) (iblk m c 0 t) j
      = Cert.Gram.gram (m ((c : Thread nD τ).loc main_arg0)) (((cfg0.win 1).blk t).view.emb j) := by
  obtain ⟨b, n, k, rfl⟩ : ∃ (b : Fin 512) (n k : Fin 32), j = ix3 b n k := ⟨j 0, j 1, j 2, eq_ix3 j⟩
  refine (pay_at (iblk m c 0 t) b n k).trans ?_
  rw [emb_at t b n k, Cert.Gram.gram_ix3]
  unfold Cert.Gram.gramAt
  refine Finset.sum_congr rfl fun d _ => ?_
  rw [iblk_at m c t b n d, iblk_at m c t b k d]

/-- WHAT POINT `t` WRITES BACK is block `t` of the Gram array of the argument: the body's one store fills the whole
    staging buffer with its product of the one loaded block. -/
theorem flushed_eq (c : Dev nD) (t : Fin cfg0.N) :
    (dats m 0 c).flushed 1 t = ((cfg0.win 1).blk t).view.read (Elt Ideal) (Cert.Gram.gram (m ((c : Thread nD τ).loc main_arg0))) := by
  show (cfg0.win 1).cut (grid0.coords t) ((dats m 0 c).after 1 t) = _
  rw [after0_1]
  unfold out0_1
  rw [View.canon_unit_zero zero3]
  simp only [View.ld_unit_zero (S := S512x32x64) zero3]
  exact funext fun j => block_gram m c t j

/-- An index of the result array is in point `t`'s block iff each coordinate is in the block's range on its axis. -/
theorem mem_blk (t : Fin cfg0.N) (i : S16384x32x32.Idx) :
    i ∈ ((cfg0.win 1).blk t).view.set ↔ ∀ a : Fin 3, win0_1.index t a * S512x32x32.size a ≤ (i a).val ∧ (i a).val < win0_1.index t a * S512x32x32.size a + S512x32x32.size a := by
  show i ∈ ((View.whole main_v0).slice (win0_1.rect t)).set ↔ _
  rw [View.set_slice_whole, Rect.mem_set_unit]
  exact Iff.rfl

/-- Matrix `B` of the result lies in the block of point `B / 512`, and every point writes its block back. -/
theorem covered (i : S16384x32x32.Idx) : ∃ t : Fin cfg0.N, (cfg0.win 1).flush t = true ∧ i ∈ ((cfg0.win 1).blk t).view.set := by
  have hi0 : (i 0).val < 16384 := (i 0).isLt
  have hi1 : (i 1).val < 32 := (i 1).isLt
  have hi2 : (i 2).val < 32 := (i 2).isLt
  have hN : cfg0.N = 32 := N_0
  obtain ⟨t, ht⟩ : ∃ t : Fin cfg0.N, t.val = (i 0).val / 512 := ⟨⟨(i 0).val / 512, by rw [hN]; omega⟩, rfl⟩
  obtain ⟨-, -, -, e0, e1, e2⟩ := blockIndex t
  refine ⟨t, flush0_1 t, ?_⟩
  rw [mem_blk]
  intro a
  match a with
  | ⟨0, _⟩ => show win0_1.index t (0 : Fin 3) * 512 ≤ (i 0).val ∧ (i 0).val < win0_1.index t (0 : Fin 3) * 512 + 512; omega
  | ⟨1, _⟩ => show win0_1.index t (1 : Fin 3) * 32 ≤ (i 1).val ∧ (i 1).val < win0_1.index t (1 : Fin 3) * 32 + 32; omega
  | ⟨2, _⟩ => show win0_1.index t (2 : Fin 3) * 32 ≤ (i 2).val ∧ (i 2).val < win0_1.index t (2 : Fin 3) * 32 + 32; omega

/-- THE RESULT ARRAY after the region is the Gram array of the argument. -/
theorem gram_array (c : Dev nD) : (dats m 0 c).arrAt 1 cfg0.N = Cert.Gram.gram (m ((c : Thread nD τ).loc main_arg0)) :=
  (dats m 0 c).arrAt_eq_of_cover 1 (Cert.Gram.gram (m ((c : Thread nD τ).loc main_arg0))) (fun t _ => flushed_eq m c t) covered

end Cert.KernelIdeal.Hand

end
-- ==== Proof.KernelRun.lean ====
/-
  The kernel program's run, with its result named.

  The program writes four constants (its two literal tables of row and column numbers and two all-false masks), runs its
  one region — after which the result array of the region is the Gram array of the argument —, and then, on the host,
  adds 32 to each table where its mask says so, sets the two tables side by side as (row, column) pairs, gathers the Gram
  array at those pairs and appends a unit axis. The region leaves the four constants as they were written, and no host
  operation before the region writes the argument; so the last buffer written holds the gathered Gram array as one term
  of the argument, and the argument ends as launched.
-/
import proofs.«111796_j20126216749638_2_alg».proof.Proof.Gen.KernelIdeal.Frame
import proofs.«111796_j20126216749638_2_alg».proof.Proof.Spec
import proofs.«111796_j20126216749638_2_alg».proof.Proof.KernelDefs
import proofs.«111796_j20126216749638_2_alg».proof.Proof.KernelGramArray
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)
open Idealize.ShloMosaic.StableHlo

namespace Cert.KernelIdeal.Hand

open Cert.KernelIdeal Cert.KernelIdeal.Gen

variable (m : (ℓ : Loc nD τ sig) → Buf (Elt Ideal) ℓ)

/-- What the core's buffers hold when the host operations after the region start: the region's two arrays as the region
    leaves them, every other buffer as the host operations before the region left it. -/
abbrev W (c : Dev nD) : Valuation τ sig (Elt Ideal) :=
  Pipeline.withArrays (cfgs 0).spec c (V0 m c) fun w => (dats m 0 c).arrAt w (cfgs 0).N

/-- The table of row numbers is still the literal written before the region. -/
theorem W_c (c : Dev nD) : (W m c (Proc.devRef .tc main_c) : IVec S496 32) = rowsLit := by
  unfold W
  rw [Pipeline.withArrays_of_ne (cfgs 0).spec c _ _ main_c (fun w => by fin_cases w <;> decide)]
  show StableHlo.after hostOps0 (fun b => m (c, b)) (Proc.devRef .tc main_c) = _
  after_results
  rfl

/-- Its mask is still all false. -/
theorem W_c_0 (c : Dev nD) : (W m c (Proc.devRef .tc main_c_0) : IVec S496 1) = constantI S496 1 0#1 := by
  unfold W
  rw [Pipeline.withArrays_of_ne (cfgs 0).spec c _ _ main_c_0 (fun w => by fin_cases w <;> decide)]
  show StableHlo.after hostOps0 (fun b => m (c, b)) (Proc.devRef .tc main_c_0) = _
  after_results

/-- The table of column numbers is still the literal written before the region. -/
theorem W_c_1 (c : Dev nD) : (W m c (Proc.devRef .tc main_c_1) : IVec S496 32) = colsLit := by
  unfold W
  rw [Pipeline.withArrays_of_ne (cfgs 0).spec c _ _ main_c_1 (fun w => by fin_cases w <;> decide)]
  show StableHlo.after hostOps0 (fun b => m (c, b)) (Proc.devRef .tc main_c_1) = _
  after_results
  rfl

/-- Its mask is still all false. -/
theorem W_c_2 (c : Dev nD) : (W m c (Proc.devRef .tc main_c_2) : IVec S496 1) = constantI S496 1 0#1 := by
  unfold W
  rw [Pipeline.withArrays_of_ne (cfgs 0).spec c _ _ main_c_2 (fun w => by fin_cases w <;> decide)]
  show StableHlo.after hostOps0 (fun b => m (c, b)) (Proc.devRef .tc main_c_2) = _
  after_results

/-- The region's result array is the Gram array of the argument. -/
theorem W_v0 (c : Dev nD) : (W m c (Proc.devRef .tc main_v0) : S16384x32x32.Idx → EReal) = Cert.Gram.gram (m ((c : Thread nD τ).loc main_arg0)) :=
  (Pipeline.withArrays_arr spec0 launch0.win.arr_inj c _ _ 1).trans (gram_array m c)

/-- The last buffer the host operations after the region write holds the Gram array gathered at the wrapped tables'
    pairs, with the unit axis appended: each operation's result at its own buffer is its function of its operands'
    contents, and the operands are the five buffers read above. -/
theorem tail_eq (c : Dev nD) :
    Pipeline.afterTail₀ cfgs (dats m) 0 (V0 m) [hostOps1] c main_v11 = out (m ((c : Thread nD τ).loc main_arg0)) := by
  unfold Pipeline.afterTail₀
  show StableHlo.after hostOps1 (W m c) (Proc.devRef .tc main_v11) = _
  after_results
  rw [W_v0 m c, W_c m c, W_c_0 m c, W_c_1 m c, W_c_2 m c]
  rfl

/-- The result buffer is unscoped and is no array of the region. -/
theorem v11_rest : main_v11 ∈ Pipeline.restRefs sig (cfgs 0).spec :=
  Pipeline.mem_restRefs_of main_v11 rfl (fun w => by fin_cases w <;> decide)

end Cert.KernelIdeal.Hand

/-- THE KERNEL PROGRAM'S RUN: from any memory with zero counters every weakly fair execution terminates; the result
    buffer ends at the Gram array of the argument gathered at the program's (row, column) pairs, and the argument ends
    as launched. -/
theorem Cert.KernelIdeal.Hand.run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v11) = Cert.KernelIdeal.Hand.out (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run Cert.KernelIdeal.defs _ _).mono (fun r h c =>
      ⟨((h c).2 Cert.KernelIdeal.main_v11 Cert.KernelIdeal.Hand.v11_rest).trans (Cert.KernelIdeal.Hand.tail_eq m c),
        ((h c).1 0).trans (((Cert.KernelIdeal.Gen.dats m 0 c).arrAt_in 0 rfl _).trans ((Cert.KernelIdeal.Gen.A_eq m c 0).trans (Cert.KernelIdeal.Gen.V_main_arg0 m c)))⟩)
    (Cert.KernelIdeal.Gen.run_main m g)

end
-- ==== Proof.RefDefs.lean ====
/-
  The reference program's result as one term of its argument, in named stages.

  The reference forms the whole Gram array by one batched contraction and gathers it at start indices that it
  COMPUTES: the positions of the ones of the strictly-upper-triangular 32 × 32 mask, in row-major order, found by
  the counting construction — the running count of ones up to each of the 1024 positions; for each count value the
  number of positions that have it; the running sum of those numbers, whose entry k is the number of positions with
  at most k ones up to them, that is the position of the (k+1)-th one — and then split into a row and a column
  number by the floored division by 32 and the remainders modulo 32.
-/
import proofs.«111796_j20126216749638_2_alg».proof.ReferenceIdeal
import proofs.«111796_j20126216749638_2_alg».proof.Proof.Gen.ReferenceIdeal
import proofs.«111796_j20126216749638_2_alg».proof.Proof.Spec

noncomputable section

namespace Cert.ReferenceIdeal.Hand

open Idealize.ShloMosaic Cert.ReferenceIdeal Cert.ReferenceIdeal.Facts₀

/-- a 32-bit scalar constant -/
abbrev k32 (n : BitVec 32) : IVec S_ 32 := constantI S_ 32 n
/-- a scalar repeated along 496 entries -/
abbrev rep496 {α : Type} (v : S_.Idx → α) : S496.Idx → α := broadcastInDim S496 ![] bcast_S_S496 v
/-- a scalar repeated along 1024 entries -/
abbrev rep1024 {α : Type} (v : S_.Idx → α) : S1024.Idx → α := broadcastInDim S1024 ![] bcast_S_S1024 v
/-- a scalar repeated over the 32 × 32 square -/
abbrev repSq {α : Type} (v : S_.Idx → α) : S32x32.Idx → α := broadcastInDim S32x32 ![] bcast_S_S32x32 v

/-- the square of ones with the entries on and below the diagonal zeroed -/
def triuF : FVec Ideal S32x32 .f32 :=
  select (cmpi .sge (addi (iotaInDim S32x32 32 0) (repSq (k32 0#32))) (iotaInDim S32x32 32 1))
    (repSq (constant (F := Ideal) S_ .f32 0x00000000#32)) (repSq (constant (F := Ideal) S_ .f32 0x3F800000#32))

/-- the mask: where that square is not zero -/
def maskB : IVec S32x32 1 := cmpf .une triuF (repSq (constant (F := Ideal) S_ .f32 0x00000000#32))

/-- the running count of the mask's ones over the 1024 positions in row-major order -/
def cs1 : IVec S1024 32 :=
  Host.reduceWindow IntOp.addi ![1024] ![1] ![1023] ![0] (extui 32 (shapeCast S1024 maskB shapeCasts_S32x32_S1024) natLt_1_32)
    (broadcastInDim S_ ![] bcast_S_S_ (k32 0#32)) reduceWindows_S1024_S1024_w1024s1p1023_0 h_S_

/-- the counts bounded below by zero -/
def clipped : IVec S1024 32 := maxsi (rep1024 (id (k32 0#32))) cs1

/-- the scatter's indices: a negative count would be wrapped by 496 -/
def scatIdx : IVec S1024 32 :=
  select (cmpi .slt clipped (rep1024 (k32 0#32))) (addi clipped (rep1024 (k32 496#32))) clipped

/-- for each count value below 496, the number of positions holding it -/
def counts : IVec S496 32 :=
  Host.scatter scatter_S496_S1024x1_S1024_n_0_0_1 IntOp.addi (rep496 (k32 0#32))
    (broadcastInDim S1024x1 ![0] bcast_S1024_S1024x1_0 scatIdx) (rep1024 (k32 1#32))

/-- the running sum of those numbers: entry k is the position of the (k+1)-th one of the mask -/
def cs2 : IVec S496 32 :=
  Host.reduceWindow IntOp.addi ![496] ![1] ![495] ![0] counts
    (broadcastInDim S_ ![] bcast_S_S_ (k32 0#32)) reduceWindows_S496_S496_w496s1p495_0 h_S_

/-- the floored quotient of a table by a scalar: the truncated quotient, less one where the signs differ and the
    division is not exact -/
def floorDiv (a : IVec S496 32) (b : IVec S_ 32) : IVec S496 32 :=
  select (andi (cmpi .ne (signi a) (rep496 (signi b))) (cmpi .ne (Host.remsi a (rep496 b)) (rep496 (k32 0#32))))
    (subi (Host.divsi a (rep496 b)) (rep496 (k32 1#32))) (Host.divsi a (rep496 b))

/-- the divisor with zero replaced by one -/
def safeDiv (b : IVec S_ 32) : IVec S_ 32 := select (cmpi .eq (id b) (k32 0#32)) (k32 1#32) (id b)

/-- the remainder with the divisor's sign: the truncated remainder, plus the divisor where it is not zero and its
    sign differs from the divisor's -/
def floorMod (a : IVec S496 32) (b : IVec S_ 32) : IVec S496 32 :=
  select (andi (cmpi .ne (cmpi .slt (Host.remsi a (rep496 (safeDiv b))) (rep496 (k32 0#32)))
        (rep496 (cmpi .slt (safeDiv b) (k32 0#32))))
      (cmpi .ne (Host.remsi a (rep496 (safeDiv b))) (rep496 (k32 0#32))))
    (addi (Host.remsi a (rep496 (safeDiv b))) (rep496 (safeDiv b))) (Host.remsi a (rep496 (safeDiv b)))

/-- a table with 32 added to its negative entries -/
def wrap (t : IVec S496 32) : IVec S496 32 :=
  select (cmpi .slt t (rep496 (k32 0#32))) (addi t (rep496 (k32 32#32))) t

/-- the row numbers the gather reads -/
def rowsR : IVec S496 32 := wrap (floorMod (floorDiv cs2 (k32 32#32)) (k32 32#32))
/-- the column numbers the gather reads -/
def colsR : IVec S496 32 := wrap (floorMod (floorDiv cs2 (k32 1#32)) (k32 32#32))

/-- two columns side by side: the gather's start indices -/
def pairs (r c : IVec S496 32) : IVec S496x2 32 :=
  concatenate S496x2 1 [⟨S496x1, broadcastInDim S496x1 ![0] bcast_S496_S496x1_0 r⟩,
    ⟨S496x1, broadcastInDim S496x1 ![0] bcast_S496_S496x1_0 c⟩] concatenates_S496x1_S496x1_S496x2_d1

/-- the entries of a [16384, 32, 32] array at the listed (row, column) pairs, with a unit axis appended -/
def pick (g : S16384x32x32.Idx → EReal) (idx : IVec S496x2 32) : S16384x496x1.Idx → EReal :=
  broadcastInDim S16384x496x1 ![0, 1] bcast_S16384x496_S16384x496x1_0_1
    (Host.gather gather_S16384x32x32_S496x2_S16384x496_0_12_n_n_12_1_1638411 g idx)

/-- the reference program's result -/
def out (x : FVec Ideal S16384x32x64 .f32) : S16384x496x1.Idx → EReal :=
  pick (Host.dotGeneral (F := Ideal) dot_S16384x32x64_S16384x32x64_S16384x32x32_2_2_1_1_0_0 none x x) (pairs rowsR colsR)

end Cert.ReferenceIdeal.Hand

end
-- ==== Proof.RefRunOps.lean ====
/-
  The reference program's @main as ONE straight line of host operations.

  @main calls eight module-local functions (the triangular mask, two running sums, a clip, two floored divisions
  and two remainders, some of which call further ones); a call executes the callee's body on the operands, each
  value of the body in a buffer of the call's own record. Listed here are the 137 operations the calls unfold to,
  in program order, each callee's operations at its call site over that call's record, cut in seven consecutive
  stretches at the values that later stretches read. `main_eq`: @main is that line. Also what the run rule asks of
  the line: no buffer and no semaphore of the signature is scoped, every operation touches TensorCore buffers only
  and determines its result.
-/
import proofs.«111796_j20126216749638_2_alg».proof.Proof.RefDefs
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

/-- Operations 1–20: the Gram array by one batched contraction; the strictly-upper-triangular square of ones, its mask, and the running count of the mask's ones over the 1024 positions. -/
abbrev ops0 : List (HloOp τ sig (Elt F)) :=
  [ StableHlo.binary main_arg0 main_arg0 main_v0 ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)),
    StableHlo.nullary main_cst (constant S_ .f32 0x3F800000#32),
    StableHlo.unary main_cst main_v1 (broadcastInDim S32x32 ![] bcast_S_S32x32 : (⟨S_, .f32⟩ : BufTy).Contents (Elt F) → (⟨S32x32, .f32⟩ : BufTy).Contents (Elt F)),
    StableHlo.TRef.nullary main_call0.v0 (iotaInDim S32x32 32 0),
    StableHlo.TRef.nullary main_call0.c (constantI S_ 32 0#32),
    StableHlo.TRef.unary main_call0.c main_call0.v1 (broadcastInDim S32x32 ![] bcast_S_S32x32),
    StableHlo.TRef.binary main_call0.v0 main_call0.v1 main_call0.v2 addi,
    StableHlo.TRef.nullary main_call0.v3 (iotaInDim S32x32 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S32x32 ![] bcast_S_S32x32),
    StableHlo.TRef.ternary main_call0.v4 main_call0.v5 (.of main_v1 : StableHlo.TRef sig ⟨S32x32, .f32⟩) main_call0.v6 select,
    StableHlo.nullary main_cst_0 (constant S_ .f32 0x00000000#32),
    StableHlo.unary main_cst_0 main_v3 (broadcastInDim S32x32 ![] bcast_S_S32x32 : (⟨S_, .f32⟩ : BufTy).Contents (Elt F) → (⟨S32x32, .f32⟩ : BufTy).Contents (Elt F)),
    StableHlo.binary main_v2 main_v3 main_v4 (cmpf .une : (⟨S32x32, .f32⟩ : BufTy).Contents (Elt F) → (⟨S32x32, .f32⟩ : BufTy).Contents (Elt F) → (⟨S32x32, .i1⟩ : BufTy).Contents (Elt F)),
    StableHlo.TRef.reshape (.of main_v4 : StableHlo.TRef sig ⟨S32x32, .i1⟩) main_call1.v0 rfl shapeCasts_S32x32_S1024,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1024] ![1] ![1023] ![0] x v reduceWindows_S1024_S1024_w1024s1p1023_0 h_S_) ]

/-- Operations 21–40: the counts bounded below by zero, the scatter's indices, the number of positions holding each count value, and the running sum of those numbers. -/
abbrev ops1 : List (HloOp τ sig (Elt F)) :=
  [ StableHlo.nullary main_c (constantI S_ 32 0#32),
    StableHlo.unary main_c main_v6 (broadcastInDim S496 ![] bcast_S_S496 : (⟨S_, .i32⟩ : BufTy).Contents (Elt F) → (⟨S496, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S1024 ![] bcast_S_S1024),
    StableHlo.TRef.binary main_call2.v1 (.of main_v5 : StableHlo.TRef sig ⟨S1024, .i32⟩) main_call2.v2 maxsi,
    StableHlo.nullary main_c_2 (constantI S_ 32 0#32),
    StableHlo.unary main_c_2 main_v8 (broadcastInDim S1024 ![] bcast_S_S1024 : (⟨S_, .i32⟩ : BufTy).Contents (Elt F) → (⟨S1024, .i32⟩ : BufTy).Contents (Elt F)),
    StableHlo.binary main_v7 main_v8 main_v9 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 496#32),
    StableHlo.unary main_c_3 main_v10 (broadcastInDim S1024 ![] bcast_S_S1024 : (⟨S_, .i32⟩ : BufTy).Contents (Elt F) → (⟨S1024, .i32⟩ : BufTy).Contents (Elt F)),
    StableHlo.binary main_v7 main_v10 main_v11 (addi : (⟨S1024, .i32⟩ : BufTy).Contents (Elt F) → (⟨S1024, .i32⟩ : BufTy).Contents (Elt F) → (⟨S1024, .i32⟩ : BufTy).Contents (Elt F)),
    StableHlo.ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v12 main_v13 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v14 (broadcastInDim S1024 ![] bcast_S_S1024 : (⟨S_, .i32⟩ : BufTy).Contents (Elt F) → (⟨S1024, .i32⟩ : BufTy).Contents (Elt F)),
    StableHlo.ternary main_v6 main_v13 main_v14 main_v15 ((fun x i u => Host.scatter scatter_S496_S1024x1_S1024_n_0_0_1 IntOp.addi x i u) : (⟨S496, .i32⟩ : BufTy).Contents (Elt F) → (⟨S1024x1, .i32⟩ : BufTy).Contents (Elt F) → (⟨S1024, .i32⟩ : BufTy).Contents (Elt F) → (⟨S496, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S496, .i32⟩) main_call3.call0.v0 main_call3.call0.v1 (fun x v => Host.reduceWindow IntOp.addi ![496] ![1] ![495] ![0] x v reduceWindows_S496_S496_w496s1p495_0 h_S_) ]

/-- Operations 41–57: the floored quotient of the running sums by 32. -/
abbrev ops2 : List (HloOp τ sig (Elt F)) :=
  [ StableHlo.nullary main_c_5 (constantI S_ 32 32#32),
    StableHlo.TRef.unary (.of main_c_5 : StableHlo.TRef sig ⟨S_, .i32⟩) main_call4.v0 (broadcastInDim S496 ![] bcast_S_S496),
    StableHlo.TRef.binary (.of main_v16 : StableHlo.TRef sig ⟨S496, .i32⟩) main_call4.v0 main_call4.v1 Host.divsi,
    StableHlo.TRef.unary (.of main_v16 : StableHlo.TRef sig ⟨S496, .i32⟩) main_call4.v2 signi,
    StableHlo.TRef.unary (.of main_c_5 : StableHlo.TRef sig ⟨S_, .i32⟩) main_call4.v3 signi,
    StableHlo.TRef.unary main_call4.v3 main_call4.v4 (broadcastInDim S496 ![] bcast_S_S496),
    StableHlo.TRef.binary main_call4.v2 main_call4.v4 main_call4.v5 (cmpi .ne),
    StableHlo.TRef.unary (.of main_c_5 : StableHlo.TRef sig ⟨S_, .i32⟩) main_call4.v6 (broadcastInDim S496 ![] bcast_S_S496),
    StableHlo.TRef.binary (.of main_v16 : StableHlo.TRef sig ⟨S496, .i32⟩) main_call4.v6 main_call4.v7 Host.remsi,
    StableHlo.TRef.nullary main_call4.c (constantI S_ 32 0#32),
    StableHlo.TRef.unary main_call4.c main_call4.v8 (broadcastInDim S496 ![] bcast_S_S496),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S496 ![] bcast_S_S496),
    StableHlo.TRef.binary main_call4.v1 main_call4.v11 main_call4.v12 subi,
    StableHlo.TRef.ternary main_call4.v10 main_call4.v12 main_call4.v1 main_call4.call0.v0 select ]

/-- Operations 58–79: the remainder modulo 32 of that quotient, with the divisor's sign. -/
abbrev ops3 : List (HloOp τ sig (Elt F)) :=
  [ StableHlo.nullary main_c_6 (constantI S_ 32 32#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S496 ![] bcast_S_S496),
    StableHlo.TRef.binary (.of main_v17 : StableHlo.TRef sig ⟨S496, .i32⟩) main_call5.v3 main_call5.v4 Host.remsi,
    StableHlo.TRef.nullary main_call5.c_1 (constantI S_ 32 0#32),
    StableHlo.TRef.unary main_call5.c_1 main_call5.v5 (broadcastInDim S496 ![] bcast_S_S496),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S496 ![] bcast_S_S496),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S496 ![] bcast_S_S496),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S496 ![] bcast_S_S496),
    StableHlo.TRef.binary main_call5.v4 main_call5.v13 main_call5.v14 addi,
    StableHlo.TRef.ternary main_call5.v12 main_call5.v14 main_call5.v4 main_call5.v15 select ]

/-- Operations 80–96: the floored quotient of the running sums by 1. -/
abbrev ops4 : List (HloOp τ sig (Elt F)) :=
  [ StableHlo.nullary main_c_7 (constantI S_ 32 1#32),
    StableHlo.TRef.unary (.of main_c_7 : StableHlo.TRef sig ⟨S_, .i32⟩) main_call6.v0 (broadcastInDim S496 ![] bcast_S_S496),
    StableHlo.TRef.binary (.of main_v16 : StableHlo.TRef sig ⟨S496, .i32⟩) main_call6.v0 main_call6.v1 Host.divsi,
    StableHlo.TRef.unary (.of main_v16 : StableHlo.TRef sig ⟨S496, .i32⟩) main_call6.v2 signi,
    StableHlo.TRef.unary (.of main_c_7 : StableHlo.TRef sig ⟨S_, .i32⟩) main_call6.v3 signi,
    StableHlo.TRef.unary main_call6.v3 main_call6.v4 (broadcastInDim S496 ![] bcast_S_S496),
    StableHlo.TRef.binary main_call6.v2 main_call6.v4 main_call6.v5 (cmpi .ne),
    StableHlo.TRef.unary (.of main_c_7 : StableHlo.TRef sig ⟨S_, .i32⟩) main_call6.v6 (broadcastInDim S496 ![] bcast_S_S496),
    StableHlo.TRef.binary (.of main_v16 : StableHlo.TRef sig ⟨S496, .i32⟩) main_call6.v6 main_call6.v7 Host.remsi,
    StableHlo.TRef.nullary main_call6.c (constantI S_ 32 0#32),
    StableHlo.TRef.unary main_call6.c main_call6.v8 (broadcastInDim S496 ![] bcast_S_S496),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S496 ![] bcast_S_S496),
    StableHlo.TRef.binary main_call6.v1 main_call6.v11 main_call6.v12 subi,
    StableHlo.TRef.ternary main_call6.v10 main_call6.v12 main_call6.v1 main_call6.call0.v0 select ]

/-- Operations 97–118: the remainder modulo 32 of that quotient, with the divisor's sign. -/
abbrev ops5 : List (HloOp τ sig (Elt F)) :=
  [ StableHlo.nullary main_c_8 (constantI S_ 32 32#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S496 ![] bcast_S_S496),
    StableHlo.TRef.binary (.of main_v19 : StableHlo.TRef sig ⟨S496, .i32⟩) main_call7.v3 main_call7.v4 Host.remsi,
    StableHlo.TRef.nullary main_call7.c_1 (constantI S_ 32 0#32),
    StableHlo.TRef.unary main_call7.c_1 main_call7.v5 (broadcastInDim S496 ![] bcast_S_S496),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S496 ![] bcast_S_S496),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S496 ![] bcast_S_S496),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S496 ![] bcast_S_S496),
    StableHlo.TRef.binary main_call7.v4 main_call7.v13 main_call7.v14 addi,
    StableHlo.TRef.ternary main_call7.v12 main_call7.v14 main_call7.v4 main_call7.v15 select ]

/-- Operations 119–137: 32 added to the negative row and column numbers, the two columns side by side, the gather of the Gram array at those pairs, and the unit axis appended. -/
abbrev ops6 : List (HloOp τ sig (Elt F)) :=
  [ StableHlo.nullary main_c_9 (constantI S_ 32 0#32),
    StableHlo.unary main_c_9 main_v21 (broadcastInDim S496 ![] bcast_S_S496 : (⟨S_, .i32⟩ : BufTy).Contents (Elt F) → (⟨S496, .i32⟩ : BufTy).Contents (Elt F)),
    StableHlo.binary main_v18 main_v21 main_v22 (cmpi .slt : (⟨S496, .i32⟩ : BufTy).Contents (Elt F) → (⟨S496, .i32⟩ : BufTy).Contents (Elt F) → (⟨S496, .i1⟩ : BufTy).Contents (Elt F)),
    StableHlo.nullary main_c_10 (constantI S_ 32 32#32),
    StableHlo.unary main_c_10 main_v23 (broadcastInDim S496 ![] bcast_S_S496 : (⟨S_, .i32⟩ : BufTy).Contents (Elt F) → (⟨S496, .i32⟩ : BufTy).Contents (Elt F)),
    StableHlo.binary main_v18 main_v23 main_v24 (addi : (⟨S496, .i32⟩ : BufTy).Contents (Elt F) → (⟨S496, .i32⟩ : BufTy).Contents (Elt F) → (⟨S496, .i32⟩ : BufTy).Contents (Elt F)),
    StableHlo.ternary main_v22 main_v24 main_v18 main_v25 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.nullary main_c_11 (constantI S_ 32 0#32),
    StableHlo.unary main_c_11 main_v26 (broadcastInDim S496 ![] bcast_S_S496 : (⟨S_, .i32⟩ : BufTy).Contents (Elt F) → (⟨S496, .i32⟩ : BufTy).Contents (Elt F)),
    StableHlo.binary main_v20 main_v26 main_v27 (cmpi .slt : (⟨S496, .i32⟩ : BufTy).Contents (Elt F) → (⟨S496, .i32⟩ : BufTy).Contents (Elt F) → (⟨S496, .i1⟩ : BufTy).Contents (Elt F)),
    StableHlo.nullary main_c_12 (constantI S_ 32 32#32),
    StableHlo.unary main_c_12 main_v28 (broadcastInDim S496 ![] bcast_S_S496 : (⟨S_, .i32⟩ : BufTy).Contents (Elt F) → (⟨S496, .i32⟩ : BufTy).Contents (Elt F)),
    StableHlo.binary main_v20 main_v28 main_v29 (addi : (⟨S496, .i32⟩ : BufTy).Contents (Elt F) → (⟨S496, .i32⟩ : BufTy).Contents (Elt F) → (⟨S496, .i32⟩ : BufTy).Contents (Elt F)),
    StableHlo.ternary main_v27 main_v29 main_v20 main_v30 (select : (⟨S496, .i1⟩ : BufTy).Contents (Elt F) → (⟨S496, .i32⟩ : BufTy).Contents (Elt F) → (⟨S496, .i32⟩ : BufTy).Contents (Elt F) → (⟨S496, .i32⟩ : BufTy).Contents (Elt F)),
    StableHlo.unary main_v25 main_v31 (broadcastInDim S496x1 ![0] bcast_S496_S496x1_0 : (⟨S496, .i32⟩ : BufTy).Contents (Elt F) → (⟨S496x1, .i32⟩ : BufTy).Contents (Elt F)),
    StableHlo.unary main_v30 main_v32 (broadcastInDim S496x1 ![0] bcast_S496_S496x1_0 : (⟨S496, .i32⟩ : BufTy).Contents (Elt F) → (⟨S496x1, .i32⟩ : BufTy).Contents (Elt F)),
    StableHlo.binary main_v31 main_v32 main_v33 ((fun a b => concatenate S496x2 1 [⟨S496x1, a⟩, ⟨S496x1, b⟩] concatenates_S496x1_S496x1_S496x2_d1) : (⟨S496x1, .i32⟩ : BufTy).Contents (Elt F) → (⟨S496x1, .i32⟩ : BufTy).Contents (Elt F) → (⟨S496x2, .i32⟩ : BufTy).Contents (Elt F)),
    StableHlo.binary main_v0 main_v33 main_v34 ((fun x i => Host.gather gather_S16384x32x32_S496x2_S16384x496_0_12_n_n_12_1_1638411 x i) : (⟨S16384x32x32, .f32⟩ : BufTy).Contents (Elt F) → (⟨S496x2, .i32⟩ : BufTy).Contents (Elt F) → (⟨S16384x496, .f32⟩ : BufTy).Contents (Elt F)),
    StableHlo.unary main_v34 main_v35 (broadcastInDim S16384x496x1 ![0, 1] bcast_S16384x496_S16384x496x1_0_1 : (⟨S16384x496, .f32⟩ : BufTy).Contents (Elt F) → (⟨S16384x496x1, .f32⟩ : BufTy).Contents (Elt F)) ]

/-- @main's 137 operations, in order. -/
abbrev ops : List (HloOp τ sig (Elt F)) := ops0 ++ (ops1 ++ (ops2 ++ (ops3 ++ (ops4 ++ (ops5 ++ ops6)))))

theorem ops0_sub : (ops0 : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl⟩

theorem ops3_sub : (ops3 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem ops4_sub : (ops4 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl⟩

theorem ops5_sub : (ops5 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub ..⟩
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- A property of every operation of two lines holds of every operation of their concatenation. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append ops0_sub (forall_append ops1_sub (forall_append ops2_sub (forall_append ops3_sub
    (forall_append ops4_sub (forall_append ops5_sub ops6_sub)))))

theorem ops_fresh : ∀ op ∈ (ops : List (HloOp τ sig (Elt F))), op.fresh = ∅ :=
  List.forall_iff_forall_mem.mp (forall_append ops0_fresh (forall_append ops1_fresh (forall_append ops2_fresh
    (forall_append ops3_fresh (forall_append ops4_fresh (forall_append ops5_fresh ops6_fresh))))))

theorem scopedRefs_eq : (Finset.univ.filter fun b : Ref sig .tc => b.isScoped) = ∅ := by decide
theorem scopedSems_eq : (Finset.univ.filter fun sm : SemLoc sig => sm.isScoped .tc) = ∅ := by decide

-- 137 binds re-associated: the rewrite under the chain recurses once per statement
set_option maxRecDepth 8192 in
/-- @main is that straight line: the functions' definitions unfolded at their calls and the records at their fields,
    both sides are one chain of operation steps once sequencing is re-associated. -/
theorem main_eq (c : Dev nD) : main (F := F) c = seq ops := by
  simp only [ops, seq_append]
  simp only [main, fn_triu.body, fn_cumsum.body, fn_cumsum_0.body, fn_clip.body, fn_cumsum_1.body, fn_cumsum_2.body,
    fn_floor_divide.body, fn_where.body, fn_remainder.body, fn_where_3.body, seq, bind_assoc, pure_bind]

end Cert.ReferenceIdeal.Hand

end
-- ==== Proof.LibAfterSplit.lean ====
/-
  The buffer contents after a straight line of host operations, cut at any position: running the first `k` operations
  and then the rest is running the whole line. A long line whose intermediate results each have several readers can
  then be evaluated one stretch at a time, every stretch from a valuation that is just a variable, instead of as one term
  in which every shared intermediate is written out once per reader.
-/
import Idealize.ShloMosaic.Lib.StableHlo.Run

noncomputable section

namespace Cert.LibAfterSplit

open Idealize.ShloMosaic Idealize.ShloMosaic.StableHlo

variable {τ : Topo} {sig : RefSig} {Val : EltTy → Type}

/-- Two lines run one after the other: the second starts from what the first leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A line cut after its first `k` operations. -/
theorem after_split (k : Nat) (l : List (HloOp τ sig Val)) (V : Valuation τ sig Val) :
    after l V = after (l.drop k) (after (l.take k) V) := by
  rw [← after_append, List.take_append_drop]

end Cert.LibAfterSplit

end
-- ==== Proof.LibTRef.lean ====
/-
  A typed reference's two transports undo each other.

  A tensor value of a module-local function is kept in a buffer whose recorded type equals the value's type; contents
  are carried between the two types along that equation (`toBuf` one way, `ofBuf` back). Carrying there and back,
  either way round, is the identity, whatever the equation's proof.
-/
import Idealize.ShloMosaic.Lib.StableHlo

namespace Cert.LibTRef

open Idealize.ShloMosaic Idealize.ShloMosaic.StableHlo

variable {sig : RefSig} {T : BufTy} {Val : EltTy → Type}

/-- Into the buffer's type and back. -/
theorem ofBuf_toBuf (x : TRef sig T) (v : T.Contents Val) : x.ofBuf (x.toBuf v) = v := by
  unfold TRef.ofBuf TRef.toBuf
  rw [cast_cast, cast_eq]

/-- Out of the buffer's type and back in. -/
theorem toBuf_ofBuf (x : TRef sig T) (u : x.ref.ty.Contents Val) : x.toBuf (x.ofBuf u) = u := by
  unfold TRef.ofBuf TRef.toBuf
  rw [cast_cast, cast_eq]

end Cert.LibTRef
-- ==== Proof.RefRunStages.lean ====
/-
  What each stretch of the reference's line leaves in the buffers that later stretches read.

  The intermediate values have several readers each (the running sums are read three times by each floored
  division, each quotient four times by its remainder, …), so the line is not evaluated as one term: each of
  its seven stretches is evaluated from a valuation that is a VARIABLE, giving the stretch's result as the
  corresponding staged definition applied to what that valuation holds in the buffers the stretch reads, and
  every buffer a later stretch still needs is shown untouched. The typed references of the functions' bodies
  carry contents along an equation between a buffer's recorded type and the value's type; at these literal
  references both are the same type, so each transport is along an equation of a type with itself and is the identity
  (`cast_eq`); they are removed before the two sides are compared.
-/
import proofs.«111796_j20126216749638_2_alg».proof.Proof.RefRunOps
import proofs.«111796_j20126216749638_2_alg».proof.Proof.LibAfterSplit
import proofs.«111796_j20126216749638_2_alg».proof.Proof.LibTRef

noncomputable section

namespace Cert.ReferenceIdeal.Hand

open Cert.ReferenceIdeal Cert.ReferenceIdeal.Facts₀ Idealize.ShloMosaic Idealize.ShloMosaic.TcCoe Idealize.SL.Sem Idealize.ShloMosaic.StableHlo

-- the window sums, the scatter, the gather and the concatenation are compared as they stand, never opened
attribute [local irreducible] Host.reduceWindow Host.scatter Host.gather concatenate

/-! ## Stretch 1: the Gram array, and the running count of the mask's ones -/

theorem ops0_v5 (V : Valuation τ sig (Elt Ideal)) : after ops0 V (main_v5 : DevRef τ sig) = cs1 := by
  after_results_simp
  rfl

theorem ops0_v0 (V : Valuation τ sig (Elt Ideal)) :
    after ops0 V (main_v0 : DevRef τ sig)
      = Host.dotGeneral (F := Ideal) (φ₁ := .f32) (φ₂ := .f32) dot_S16384x32x64_S16384x32x64_S16384x32x32_2_2_1_1_0_0 none
          (V (main_arg0 : DevRef τ sig)) (V (main_arg0 : DevRef τ sig)) := by
  after_results_simp

theorem ops0_arg0 (V : Valuation τ sig (Elt Ideal)) :
    after ops0 V (main_arg0 : DevRef τ sig) = V (main_arg0 : DevRef τ sig) := by
  after_results_simp

/-! ## Stretch 2: the running sum of the numbers of positions per count value -/

theorem ops1_v16 (V : Valuation τ sig (Elt Ideal)) (h5 : V (main_v5 : DevRef τ sig) = cs1) :
    after ops1 V (main_v16 : DevRef τ sig) = cs2 := by
  after_results_simp
  simp only [TRef.ofBuf, TRef.toBuf, cast_eq]
  rw [h5]
  rfl

theorem ops1_v0 (V : Valuation τ sig (Elt Ideal)) :
    after ops1 V (main_v0 : DevRef τ sig) = V (main_v0 : DevRef τ sig) := by
  after_results_simp

theorem ops1_arg0 (V : Valuation τ sig (Elt Ideal)) :
    after ops1 V (main_arg0 : DevRef τ sig) = V (main_arg0 : DevRef τ sig) := by
  after_results_simp

/-! ## Stretch 3: the floored quotient by 32 -/

theorem ops2_v17 (V : Valuation τ sig (Elt Ideal)) :
    after ops2 V (main_v17 : DevRef τ sig) = floorDiv (V (main_v16 : DevRef τ sig)) (k32 32#32) := by
  after_results_simp
  simp only [TRef.ofBuf, TRef.toBuf, cast_eq]
  rfl

theorem ops2_v16 (V : Valuation τ sig (Elt Ideal)) :
    after ops2 V (main_v16 : DevRef τ sig) = V (main_v16 : DevRef τ sig) := by
  after_results_simp

theorem ops2_v0 (V : Valuation τ sig (Elt Ideal)) :
    after ops2 V (main_v0 : DevRef τ sig) = V (main_v0 : DevRef τ sig) := by
  after_results_simp

theorem ops2_arg0 (V : Valuation τ sig (Elt Ideal)) :
    after ops2 V (main_arg0 : DevRef τ sig) = V (main_arg0 : DevRef τ sig) := by
  after_results_simp

/-! ## Stretch 4: that quotient's remainder modulo 32 -/

theorem ops3_v18 (V : Valuation τ sig (Elt Ideal)) :
    after ops3 V (main_v18 : DevRef τ sig) = floorMod (V (main_v17 : DevRef τ sig)) (k32 32#32) := by
  after_results_simp
  simp only [TRef.ofBuf, TRef.toBuf, cast_eq]
  rfl

theorem ops3_v16 (V : Valuation τ sig (Elt Ideal)) :
    after ops3 V (main_v16 : DevRef τ sig) = V (main_v16 : DevRef τ sig) := by
  after_results_simp

theorem ops3_v0 (V : Valuation τ sig (Elt Ideal)) :
    after ops3 V (main_v0 : DevRef τ sig) = V (main_v0 : DevRef τ sig) := by
  after_results_simp

theorem ops3_arg0 (V : Valuation τ sig (Elt Ideal)) :
    after ops3 V (main_arg0 : DevRef τ sig) = V (main_arg0 : DevRef τ sig) := by
  after_results_simp

/-! ## Stretch 5: the floored quotient by 1 -/

theorem ops4_v19 (V : Valuation τ sig (Elt Ideal)) :
    after ops4 V (main_v19 : DevRef τ sig) = floorDiv (V (main_v16 : DevRef τ sig)) (k32 1#32) := by
  after_results_simp
  simp only [TRef.ofBuf, TRef.toBuf, cast_eq]
  rfl

theorem ops4_v18 (V : Valuation τ sig (Elt Ideal)) :
    after ops4 V (main_v18 : DevRef τ sig) = V (main_v18 : DevRef τ sig) := by
  after_results_simp

theorem ops4_v0 (V : Valuation τ sig (Elt Ideal)) :
    after ops4 V (main_v0 : DevRef τ sig) = V (main_v0 : DevRef τ sig) := by
  after_results_simp

theorem ops4_arg0 (V : Valuation τ sig (Elt Ideal)) :
    after ops4 V (main_arg0 : DevRef τ sig) = V (main_arg0 : DevRef τ sig) := by
  after_results_simp

/-! ## Stretch 6: that quotient's remainder modulo 32 -/

theorem ops5_v20 (V : Valuation τ sig (Elt Ideal)) :
    after ops5 V (main_v20 : DevRef τ sig) = floorMod (V (main_v19 : DevRef τ sig)) (k32 32#32) := by
  after_results_simp
  simp only [TRef.ofBuf, TRef.toBuf, cast_eq]
  rfl

theorem ops5_v18 (V : Valuation τ sig (Elt Ideal)) :
    after ops5 V (main_v18 : DevRef τ sig) = V (main_v18 : DevRef τ sig) := by
  after_results_simp

theorem ops5_v0 (V : Valuation τ sig (Elt Ideal)) :
    after ops5 V (main_v0 : DevRef τ sig) = V (main_v0 : DevRef τ sig) := by
  after_results_simp

theorem ops5_arg0 (V : Valuation τ sig (Elt Ideal)) :
    after ops5 V (main_arg0 : DevRef τ sig) = V (main_arg0 : DevRef τ sig) := by
  after_results_simp

/-! ## Stretch 7: the (row, column) pairs and the gather -/

theorem ops6_v35 (V : Valuation τ sig (Elt Ideal)) :
    after ops6 V (main_v35 : DevRef τ sig)
      = pick (V (main_v0 : DevRef τ sig)) (pairs (wrap (V (main_v18 : DevRef τ sig))) (wrap (V (main_v20 : DevRef τ sig)))) := by
  after_results_simp
  rfl

theorem ops6_arg0 (V : Valuation τ sig (Elt Ideal)) :
    after ops6 V (main_arg0 : DevRef τ sig) = V (main_arg0 : DevRef τ sig) := by
  after_results_simp

end Cert.ReferenceIdeal.Hand

end
-- ==== Proof.RefRun.lean ====
/-
  The reference program's run, read back: every weakly fair execution of @main terminates, the result buffer
  holds the staged result `out` of the argument's launch contents, and the argument is unchanged.

  The line's contents after all 137 operations are the seven stretches' results chained: the first stretch leaves
  the Gram array and the running count of the mask's ones; the second turns that count into the running sums
  `cs2`; the third to sixth form the two floored quotients of `cs2` and their remainders modulo 32; the last wraps
  the negative numbers, pairs rows with columns and gathers. Each link is the stretch's lemma at a valuation that
  is a variable, with the buffers later stretches read carried along unchanged.
-/
import proofs.«111796_j20126216749638_2_alg».proof.Proof.RefRunStages

noncomputable section

namespace Cert.ReferenceIdeal.Hand

open Cert.ReferenceIdeal Cert.ReferenceIdeal.Facts₀ Idealize.ShloMosaic Idealize.ShloMosaic.TcCoe Idealize.SL.Sem Idealize.ShloMosaic.StableHlo
open Cert.LibAfterSplit (after_append)

/-- After the whole line from any contents: the result buffer holds `out` of the argument, the argument is unchanged. -/
theorem after_ops (V : Valuation τ sig (Elt Ideal)) :
    after ops V (main_v35 : DevRef τ sig) = out (V (main_arg0 : DevRef τ sig))
      ∧ after ops V (main_arg0 : DevRef τ sig) = V (main_arg0 : DevRef τ sig) := by
  simp only [ops, after_append]
  -- stretch 1
  have a5 := ops0_v5 V
  have a0 := ops0_v0 V
  have aa := ops0_arg0 V
  generalize after ops0 V = V₁ at a5 a0 aa ⊢
  -- stretch 2
  have b16 := ops1_v16 V₁ a5
  have b0 := (ops1_v0 V₁).trans a0
  have ba := (ops1_arg0 V₁).trans aa
  clear a5 a0 aa
  generalize after ops1 V₁ = V₂ at b16 b0 ba ⊢
  -- stretch 3
  have c17 := ops2_v17 V₂
  rw [b16] at c17
  have c16 := (ops2_v16 V₂).trans b16
  have c0 := (ops2_v0 V₂).trans b0
  have ca := (ops2_arg0 V₂).trans ba
  clear b16 b0 ba
  generalize after ops2 V₂ = V₃ at c17 c16 c0 ca ⊢
  -- stretch 4
  have d18 := ops3_v18 V₃
  rw [c17] at d18
  have d16 := (ops3_v16 V₃).trans c16
  have d0 := (ops3_v0 V₃).trans c0
  have da := (ops3_arg0 V₃).trans ca
  clear c17 c16 c0 ca
  generalize after ops3 V₃ = V₄ at d18 d16 d0 da ⊢
  -- stretch 5
  have e19 := ops4_v19 V₄
  rw [d16] at e19
  have e18 := (ops4_v18 V₄).trans d18
  have e0 := (ops4_v0 V₄).trans d0
  have ea := (ops4_arg0 V₄).trans da
  clear d18 d16 d0 da
  generalize after ops4 V₄ = V₅ at e19 e18 e0 ea ⊢
  -- stretch 6
  have f20 := ops5_v20 V₅
  rw [e19] at f20
  have f18 := (ops5_v18 V₅).trans e18
  have f0 := (ops5_v0 V₅).trans e0
  have fa := (ops5_arg0 V₅).trans ea
  clear e19 e18 e0 ea
  generalize after ops5 V₅ = V₆ at f20 f18 f0 fa ⊢
  -- stretch 7
  refine ⟨?_, (ops6_arg0 V₆).trans fa⟩
  rw [ops6_v35, f0, f18, f20]
  rfl

/-- At the compiled mesh, from any memory with zero counters: every weakly fair execution of @main on the
    TensorCores terminates, with the result buffer at `out` of the argument's launch contents and the argument
    unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v35) = Cert.ReferenceIdeal.Hand.out (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run defs _ _).mono (fun _ h c => ⟨(h c main_v35).trans (after_ops (launchContents m c)).1,
      (h c main_arg0).trans (after_ops (launchContents m c)).2⟩)
    (run_seq scopedRefs_eq scopedSems_eq defs main (fun _ => ops) main_eq (fun _ => ops_sub) m g (fun _ => ops_fresh))

end Cert.ReferenceIdeal.Hand

end
-- ==== Proof.Count.lean ====
/-
  Counting the positions of a 32 × 32 square that lie strictly above the diagonal, in row-major order.

  Position `p` (row `p / 32`, column `p % 32`) is above the diagonal when its row number is less than its column
  number. `cnt p` is the number of such positions among `0, …, p`. Row `r` holds `31 - r` of them, at the columns
  `r + 1, …, 31`, so `cnt (32 r + c) = 31 r - r (r - 1) / 2 + (c - r)` with the truncated difference. Since `cnt` rises
  by exactly one at each such position and nowhere else, the position `P` at which it reaches `k + 1` is the number of
  positions whose count is at most `k`: those are exactly the positions before `P`.
-/
import Mathlib.Algebra.BigOperators.Group.Finset.Basic
import Mathlib.Algebra.BigOperators.Ring.Finset
import Mathlib.Tactic

namespace Cert.Triu

/-- position `p` of the square, read row-major, lies strictly above the diagonal -/
def above (p : ℕ) : Prop := p / 32 < p % 32

instance : DecidablePred above := fun p => by unfold above; infer_instance

/-- the number of positions among `0, …, p` that lie above the diagonal -/
def cnt : ℕ → ℕ
  | 0 => 0
  | p + 1 => cnt p + if above (p + 1) then 1 else 0

/-- the same number in closed form: the full rows before row `p / 32`, and the part of that row up to column `p % 32` -/
def cntF (p : ℕ) : ℕ := 31 * (p / 32) - (p / 32) * (p / 32 - 1) / 2 + (p % 32 - p / 32)

/-- the closed form rises by one exactly at the positions above the diagonal -/
theorem cntF_step : ∀ p : Fin 1023, cntF (p.val + 1) = cntF p.val + if above (p.val + 1) then 1 else 0 := by
  decide +kernel

theorem cnt_eq_cntF : ∀ p, p < 1024 → cnt p = cntF p := by
  intro p
  induction p with
  | zero => intro _; decide
  | succ p ih =>
    intro h
    rw [cnt, ih (by omega)]
    exact (cntF_step ⟨p, by omega⟩).symm

theorem cnt_le_succ (p : ℕ) : cnt p ≤ cnt (p + 1) := by
  rw [cnt]; exact Nat.le_add_right _ _

theorem cnt_mono {p q : ℕ} (h : p ≤ q) : cnt p ≤ cnt q := by
  induction h with
  | refl => exact le_rfl
  | step _ ih => exact ih.trans (cnt_le_succ _)

/-- there are never more than 1024 of them -/
theorem cnt_le (p : ℕ) : cnt p ≤ p := by
  induction p with
  | zero => exact le_rfl
  | succ p ih => rw [cnt]; split <;> omega

/-- `cnt` is a running sum of indicator values -/
theorem sum_range_above (p : ℕ) : (∑ q ∈ Finset.range (p + 1), if above q then 1 else 0) = cnt p := by
  induction p with
  | zero => decide
  | succ p ih => rw [Finset.sum_range_succ, ih, cnt]

/-- The position at which the count reaches `k + 1` is the number of positions of count at most `k`. -/
theorem sum_cnt_le (P k : ℕ) (hP : P < 1024) (h1 : cnt P = k + 1) (h2 : above P) :
    (∑ p ∈ Finset.range 1024, if cnt p ≤ k then 1 else 0) = P := by
  have hP0 : P ≠ 0 := by rintro rfl; exact absurd h2 (by decide)
  obtain ⟨Q, rfl⟩ : ∃ Q, P = Q + 1 := ⟨P - 1, by omega⟩
  have hQ : cnt Q = k := by
    have := h1; rw [cnt, if_pos h2] at this; omega
  have key : ∀ p, cnt p ≤ k ↔ p < Q + 1 := by
    intro p
    constructor
    · intro hp
      by_contra hlt
      have := cnt_mono (Nat.le_of_not_lt hlt)
      omega
    · intro hp
      have := cnt_mono (Nat.lt_succ_iff.mp hp)
      omega
  simp only [key]
  rw [← Finset.sum_filter, Finset.sum_const, smul_eq_mul, mul_one]
  have : (Finset.range 1024).filter (fun p => p < Q + 1) = Finset.range (Q + 1) := by
    ext p; simp only [Finset.mem_filter, Finset.mem_range]; omega
  rw [this, Finset.card_range]

/-- Summing, over the count values up to `k`, the number of positions holding each gives the number of positions of
    count at most `k`. -/
theorem sum_sum_eq (k : ℕ) :
    (∑ j ∈ Finset.range (k + 1), ∑ p ∈ Finset.range 1024, if cnt p = j then 1 else 0)
      = ∑ p ∈ Finset.range 1024, if cnt p ≤ k then 1 else 0 := by
  rw [Finset.sum_comm]
  refine Finset.sum_congr rfl fun p _ => ?_
  rw [Finset.sum_ite_eq (Finset.range (k + 1)) (cnt p) (fun _ => 1)]
  simp only [Finset.mem_range, Nat.lt_succ_iff]

end Cert.Triu
-- ==== Proof.LibCumsum.lean ====
/-
  A running sum spelt as a sliding-window reduction, read at an index.

  `jnp.cumsum` of a vector of `N` 32-bit integers lowers to a window reduction by addition with window `N`, stride 1 and
  `N - 1` cells of padding in front: result `j` adds, over the window positions `a = 0, …, N - 1`, the padded operand at
  `j + a`, which is the zero of the padding when `j + a < N - 1` and the operand's entry `j + a - (N - 1)` otherwise. Those
  entries are exactly `0, …, j`: the result is the prefix sum. (Integer addition is associative and commutative, so the
  order of the fold is immaterial; the sums below are in the ring of 32-bit words.)
-/
import Idealize.ShloMosaic.Lib.ValueIdx
import Idealize.ShloMosaic.PureOps
import Mathlib.Data.BitVec
import Mathlib.Tactic

namespace Cert.LibCumsum

open Idealize.ShloMosaic Idealize.ShloMosaic.ValueIdx

/-- A left fold by integer addition is the start plus the sum of the terms. -/
theorem foldl_addi {ι : Type} (l : List ι) (g : ι → BitVec 32) (v : BitVec 32) :
    l.foldl (fun r n => IntOp.addi r (g n)) v = v + (l.map g).sum := by
  induction l generalizing v with
  | nil => simp
  | cons a l ih =>
    rw [List.foldl_cons, ih, List.map_cons, List.sum_cons]
    show v + g a + _ = _
    rw [add_assoc]

/-- A rank-1 index set is its coordinate range. -/
def idxEquiv {n : Nat} : (⟨1, ![n]⟩ : Shape).Idx ≃ Fin n where
  toFun i := i 0
  invFun a := ix1 a
  left_inv i := (eq_ix1 i).symm
  right_inv _ := rfl

/-- A sum over the cells of a vector, taken in the order of their row-major numbers, is the sum over the coordinate. -/
theorem sum_cells {M : Type*} [AddCommMonoid M] {n : Nat} (f : Fin n → M) :
    (∑ k : Fin (⟨1, ![n]⟩ : Shape).numel, f (((⟨1, ![n]⟩ : Shape).rowMajor.symm k) 0)) = ∑ a : Fin n, f a := by
  rw [Equiv.sum_comp ((⟨1, ![n]⟩ : Shape).rowMajor.symm) (fun i : (⟨1, ![n]⟩ : Shape).Idx => f (i 0))]
  exact Equiv.sum_comp (idxEquiv (n := n)) f

/-- The window's positions that fall on the operand, shifted back, are the entries up to `j`. -/
theorem sum_shift (f : ℕ → BitVec 32) {N lo : ℕ} (hlo : lo + 1 = N) (j : ℕ) (hj : j < N) :
    (∑ a : Fin N, if lo ≤ j + a.val then f (j + a.val - lo) else 0) = ∑ q ∈ Finset.range (j + 1), f q := by
  rw [Fin.sum_univ_eq_sum_range (fun a => if lo ≤ j + a then f (j + a - lo) else 0) N, ← Finset.sum_filter]
  refine Finset.sum_nbij' (fun a => j + a - lo) (fun q => q + lo - j) ?_ ?_ ?_ ?_ ?_
  · intro a ha
    simp only [Finset.mem_filter, Finset.mem_range] at ha ⊢
    omega
  · intro q hq
    simp only [Finset.mem_filter, Finset.mem_range] at hq ⊢
    omega
  · intro a ha
    simp only [Finset.mem_filter, Finset.mem_range] at ha
    omega
  · intro q hq
    simp only [Finset.mem_range] at hq
    omega
  · intro a _; rfl

/-- The running sum of a vector of 32-bit integers, as a window reduction with the whole length as window and one cell
    less of padding in front, read at entry `j`: the sum of the entries `0, …, j`. -/
theorem cumsum_apply {N lo : ℕ} (hlo : lo + 1 = N) (x : IVec ⟨1, ![N]⟩ 32) (init : IVec ⟨0, ![]⟩ 32)
    (h0 : ∀ i, init i = 0#32)
    (h : (⟨1, ![N]⟩ : Shape).ReduceWindows (![N] : Fin 1 → ℕ) ![1] ![lo] ![0] ⟨1, ![N]⟩)
    (hu : 0 < (⟨0, ![]⟩ : Shape).numel) (j : Fin N) :
    Host.reduceWindow IntOp.addi (![N] : Fin 1 → ℕ) ![1] ![lo] ![0] x init h hu (ix1 j)
      = ∑ q ∈ Finset.range (j.val + 1), (if hq : q < N then x (ix1 ⟨q, hq⟩) else 0) := by
  unfold Host.reduceWindow
  dsimp only
  rw [h0, foldl_addi, BitVec.zero_add, ← Fin.sum_univ_def]
  rw [← sum_shift (fun q => if hq : q < N then x (ix1 ⟨q, hq⟩) else 0) hlo j.val j.isLt]
  rw [← sum_cells (fun a : Fin N => if lo ≤ j.val + a.val then
    (fun q => if hq : q < N then x (ix1 ⟨q, hq⟩) else 0) (j.val + a.val - lo) else 0)]
  refine Finset.sum_congr rfl fun k _ => ?_
  have hi : (((⟨1, ![N]⟩ : Shape).rowMajor.symm k) 0).val < N := (((⟨1, ![N]⟩ : Shape).rowMajor.symm k) 0).isLt
  set A : ℕ := (((⟨1, ![N]⟩ : Shape).rowMajor.symm k) 0).val with hA
  by_cases hc : lo ≤ j.val + A
  · have hin : ∀ a : Fin 1, (![lo] : Fin 1 → ℕ) a ≤ (ix1 j (Fin.cast h.1.symm a)).val * (![1] : Fin 1 → ℕ) a
          + (((⟨1, ![N]⟩ : Shape).rowMajor.symm k) a).val ∧
        (ix1 j (Fin.cast h.1.symm a)).val * (![1] : Fin 1 → ℕ) a + (((⟨1, ![N]⟩ : Shape).rowMajor.symm k) a).val
          - (![lo] : Fin 1 → ℕ) a < (![N] : Fin 1 → ℕ) a := by
      intro a
      obtain rfl : a = 0 := Subsingleton.elim _ _
      show lo ≤ j.val * 1 + A ∧ j.val * 1 + A - lo < N
      omega
    rw [dif_pos hin, if_pos hc]
    have hq : j.val + A - lo < N := by omega
    show _ = if hq : j.val + A - lo < N then x (ix1 ⟨j.val + A - lo, hq⟩) else 0
    rw [dif_pos hq]
    refine congrArg x ?_
    funext a
    obtain rfl : a = 0 := Subsingleton.elim _ _
    refine Fin.ext ?_
    show j.val * 1 + A - lo = j.val + A - lo
    omega
  · rw [dif_neg, if_neg hc]
    · rfl
    · intro hin
      apply hc
      have e : lo ≤ j.val * 1 + A := (hin 0).1
      omega

end Cert.LibCumsum
-- ==== Proof.Mask.lean ====
/-
  The reference's mask and its running count, read at an index.

  The mask is 1 at the cells (r, c) of the 32 × 32 square with r < c: it is built as "the square of ones with the
  cells c ≤ r zeroed, compared against zero", and the two float constants it is built from, 0 and 1, are different
  extended reals. Flattened row-major, cell p = 32 r + c carries that bit; widened to 32 bits and summed from the front,
  entry p of the running sum is the number of cells above the diagonal among 0, …, p, as a 32-bit word.
-/
import Idealize.ShloMosaic.Lib.ValueIdx
import Idealize.ShloMosaic.Lib.Pipeline.Value
import Idealize.ShloMosaic.PureOps.Ideal.Laws
import proofs.«111796_j20126216749638_2_alg».proof.Proof.RefDefs
import proofs.«111796_j20126216749638_2_alg».proof.Proof.Count
import proofs.«111796_j20126216749638_2_alg».proof.Proof.LibCumsum

namespace Cert.Triu

open Idealize.ShloMosaic Idealize.ShloMosaic.ValueIdx Cert.ReferenceIdeal Cert.ReferenceIdeal.Facts₀ Cert.ReferenceIdeal.Hand

/-- the pattern of 1.0 does not denote zero -/
theorem one_ne_zero_f32 : Ideal.ofBits .f32 0x3F800000#32 ≠ 0 := by
  simp [Ideal.ofBits, Ideal.ieee]

/-- the signed comparison "row number ≥ column number" on the 32-bit words of two numbers below 32 -/
theorem tri_cmp : ∀ r c : Fin 32,
    IntOp.cmpi .sge (IntOp.addi (BitVec.ofNat 32 r.val) 0#32) (BitVec.ofNat 32 c.val) = if c.val ≤ r.val then 1#1 else 0#1 := by
  decide +kernel

/-- The mask at row `r`, column `c`: set exactly above the diagonal. -/
theorem maskB_apply (r c : Fin 32) : maskB (ix2 r c) = if r.val < c.val then 1#1 else 0#1 := by
  show Ideal.cmp .une (Scalar.select (IntOp.cmpi .sge (IntOp.addi (BitVec.ofNat 32 r.val) 0#32) (BitVec.ofNat 32 c.val))
    (Ideal.ofBits .f32 0x00000000#32) (Ideal.ofBits .f32 0x3F800000#32)) (Ideal.ofBits .f32 0x00000000#32) = _
  rw [tri_cmp, Ideal.ofBits_zero_f32]
  by_cases h : c.val ≤ r.val
  · rw [if_pos h, if_neg (by omega)]
    simp [Scalar.select, Ideal.cmp]
  · rw [if_neg h, if_pos (by omega)]
    have h1 := one_ne_zero_f32
    simp [Scalar.select, Ideal.cmp, h1]

/-- The flattened mask widened to 32 bits, at cell `p`. -/
theorem flat_apply (p : Fin 1024) :
    extui 32 (shapeCast S1024 maskB shapeCasts_S32x32_S1024) natLt_1_32 (ix1 p) = if above p.val then 1#32 else 0#32 := by
  show (shapeCast S1024 maskB shapeCasts_S32x32_S1024 (ix1 p)).setWidth 32 = _
  rw [shapeCast_apply maskB shapeCasts_S32x32_S1024 (ix1 p) (ix2 (⟨p.val / 32, by omega⟩ : Fin 32) (⟨p.val % 32, by omega⟩ : Fin 32))
    (by rw [Shape.rowMajor_val_two, Shape.rowMajor_val_one]; show p.val / 32 * 32 + p.val % 32 = p.val; omega)]
  rw [maskB_apply]
  unfold above
  show (if p.val / 32 < p.val % 32 then 1#1 else 0#1).setWidth 32 = if p.val / 32 < p.val % 32 then 1#32 else 0#32
  by_cases h : p.val / 32 < p.val % 32
  · rw [if_pos h, if_pos h]; rfl
  · rw [if_neg h, if_neg h]; rfl

/-- The first running count at cell `p`: the number of cells above the diagonal up to `p`, as a word. -/
theorem cs1_apply (p : Fin 1024) : cs1 (ix1 p) = BitVec.ofNat 32 (cnt p.val) := by
  unfold cs1
  rw [Cert.LibCumsum.cumsum_apply (N := 1024) (lo := 1023) rfl _ (broadcastInDim S_ ![] bcast_S_S_ (k32 0#32)) (fun _ => rfl)]
  rw [← sum_range_above, ← BitVec.natCast_eq_ofNat, Nat.cast_sum]
  refine Finset.sum_congr rfl fun q hq => ?_
  have hq' : q < 1024 := by have := Finset.mem_range.mp hq; omega
  rw [dif_pos hq', flat_apply ⟨q, hq'⟩]
  split <;> simp

end Cert.Triu
-- ==== Proof.Tables.lean ====
/-
  The kernel's two literal tables against the count.

  Entry `k` of the tables is a pair (row, column); its cell of the 32 × 32 square is `pos k = 32 · row + column`. Checked
  entry by entry: the cell lies above the diagonal and the count of such cells up to it is `k + 1` — the tables list the
  cells above the diagonal in row-major order —, and the reference's way of splitting a cell number into a row and a
  column (floored division by 32, then by 1, each followed by the remainder modulo 32 and the wrap of negative numbers)
  gives back the listed pair.
-/
import Idealize.ShloMosaic.Lib.ValueIdx
import proofs.«111796_j20126216749638_2_alg».proof.Proof.RefDefs
import proofs.«111796_j20126216749638_2_alg».proof.Proof.KernelDefs
import proofs.«111796_j20126216749638_2_alg».proof.Proof.Count

namespace Cert.Triu

open Idealize.ShloMosaic Idealize.ShloMosaic.ValueIdx

/-- the cell of the square that entry `k` of the kernel's tables names -/
def pos (k : ℕ) : ℕ := 32 * (Cert.KernelIdeal.lit0t k).toNat + (Cert.KernelIdeal.lit1t k).toNat

/-- the sign of a 32-bit word as a word: 0, -1 or 1 -/
def sgn (v : BitVec 32) : BitVec 32 := if v = 0 then 0 else if v.msb then -1 else 1

/-- the floored quotient of two words: the truncated quotient, less one where the signs differ and the division is
    not exact -/
def fdiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- a divisor with zero replaced by one -/
def nz (b : BitVec 32) : BitVec 32 := Scalar.select (IntOp.cmpi .eq b 0#32) 1#32 b

/-- the remainder with the divisor's sign -/
def fmod (a b : BitVec 32) : BitVec 32 :=
  Scalar.select (IntOp.andi (IntOp.cmpi .ne (IntOp.cmpi .slt (IntOp.remsi .host a (nz b)) 0#32) (IntOp.cmpi .slt (nz b) 0#32))
      (IntOp.cmpi .ne (IntOp.remsi .host a (nz b)) 0#32))
    (IntOp.addi (IntOp.remsi .host a (nz b)) (nz b)) (IntOp.remsi .host a (nz b))

/-- 32 added to a negative word -/
def wrp (t : BitVec 32) : BitVec 32 := Scalar.select (IntOp.cmpi .slt t 0#32) (IntOp.addi t 32#32) t

/-- the reference's row number of a cell number -/
def rowOf (v : BitVec 32) : BitVec 32 := wrp (fmod (fdiv v 32#32) 32#32)

/-- the reference's column number of a cell number -/
def colOf (v : BitVec 32) : BitVec 32 := wrp (fmod (fdiv v 1#32) 32#32)

/-- every stage acts entry by entry -/
theorem floorDiv_apply (a : IVec Cert.ReferenceIdeal.S496 32) (b : BitVec 32) (i : Cert.ReferenceIdeal.S496.Idx) :
    Cert.ReferenceIdeal.Hand.floorDiv a (Cert.ReferenceIdeal.Hand.k32 b) i = fdiv (a i) b := rfl

theorem floorMod_apply (a : IVec Cert.ReferenceIdeal.S496 32) (b : BitVec 32) (i : Cert.ReferenceIdeal.S496.Idx) :
    Cert.ReferenceIdeal.Hand.floorMod a (Cert.ReferenceIdeal.Hand.k32 b) i = fmod (a i) b := rfl

theorem wrap_apply (t : IVec Cert.ReferenceIdeal.S496 32) (i : Cert.ReferenceIdeal.S496.Idx) :
    Cert.ReferenceIdeal.Hand.wrap t i = wrp (t i) := rfl

theorem rowsR_apply (i : Cert.ReferenceIdeal.S496.Idx) :
    Cert.ReferenceIdeal.Hand.rowsR i = rowOf (Cert.ReferenceIdeal.Hand.cs2 i) := by
  unfold Cert.ReferenceIdeal.Hand.rowsR rowOf
  rw [wrap_apply, floorMod_apply, floorDiv_apply]

theorem colsR_apply (i : Cert.ReferenceIdeal.S496.Idx) :
    Cert.ReferenceIdeal.Hand.colsR i = colOf (Cert.ReferenceIdeal.Hand.cs2 i) := by
  unfold Cert.ReferenceIdeal.Hand.colsR colOf
  rw [wrap_apply, floorMod_apply, floorDiv_apply]

/-- The tables, entry by entry: the named cell is inside the square, the count reaches `k + 1` there, it lies above the
    diagonal, and the reference's splitting of its number gives back the listed row and column. -/
theorem table_facts : ∀ k : Fin 496,
    pos k.val < 1024 ∧ cntF (pos k.val) = k.val + 1 ∧ above (pos k.val) ∧
      rowOf (BitVec.ofNat 32 (pos k.val)) = Cert.KernelIdeal.lit0t k.val ∧
      colOf (BitVec.ofNat 32 (pos k.val)) = Cert.KernelIdeal.lit1t k.val := by
  decide +kernel

/-- the kernel's row numbers are its literal table: the wrap's mask is all false -/
theorem rowsK_apply (k : Fin 496) : Cert.KernelIdeal.Hand.rowsK (ix1 k) = Cert.KernelIdeal.lit0t k.val :=
  (show Cert.KernelIdeal.Hand.rowsK (ix1 k) = Cert.KernelIdeal.lit0t (Cert.KernelIdeal.S496.rowMajor (ix1 k)).val from rfl).trans
    (congrArg Cert.KernelIdeal.lit0t (Shape.rowMajor_val_one (ix1 k)))

theorem colsK_apply (k : Fin 496) : Cert.KernelIdeal.Hand.colsK (ix1 k) = Cert.KernelIdeal.lit1t k.val :=
  (show Cert.KernelIdeal.Hand.colsK (ix1 k) = Cert.KernelIdeal.lit1t (Cert.KernelIdeal.S496.rowMajor (ix1 k)).val from rfl).trans
    (congrArg Cert.KernelIdeal.lit1t (Shape.rowMajor_val_one (ix1 k)))

end Cert.Triu
-- ==== Proof.LibScatterRows.lean ====
/-
  The accumulating float scatter at the exact-real instance, read at one element, for the two patterns of
  dimension numbers a segment sum lowers to.

  The scatter's result at an operand element is the operand's value there plus the sum of the update elements
  whose result index is that element. The result index of an update element is, on every operand axis, the
  window's start (the scatter index word read as a SIGNED integer, not clamped, on the axis the map names; zero
  elsewhere) plus the window coordinate (the update's own coordinate on a window axis; zero on an inserted axis);
  an update whose result index leaves the operand on some axis is dropped.

  Rows: operand `[N, K]`, one scatter index per update row (a column `[R, 1]`), updates `[R, K]`, the update's
  second axis the window on the operand's second axis. Update element `(e, k')` lands at `(r, k)` exactly when
  row `e`'s index word, read signed, is `r` and `k' = k`; so element `(r, k)` of the result is the operand's
  element plus the sum, over the update rows `e` whose index word is `r`, of `upd (e, k)`.

  Flat: operand `[N]`, scatter indices `[R, 1]`, updates `[R]`, no window axis. Update element `e` lands at `r`
  exactly when its index word, read signed, is `r`.
-/
import Idealize.ShloMosaic.Lib.ValueIdx
import Idealize.ShloMosaic.PureOps.Ideal

namespace Cert.LibScatterRows

open Idealize.ShloMosaic Idealize.ShloMosaic.ValueIdx

/-! ## Rows: `x.at[idx].add(upd)` for `x : [N, K]`, `upd : [R, K]`, one index per update row -/

/-- dimension numbers of a row-wise accumulating scatter into `[N, K]` at a column of indices `[R, 1]` -/
abbrev rowDims (N K R : Nat) (wf : ScatterDims.WF ⟨2, ![N, K]⟩ ⟨2, ![R, 1]⟩ ⟨2, ![R, K]⟩ [1] [0] [0] 1) :
    ScatterDims ⟨2, ![N, K]⟩ ⟨2, ![R, 1]⟩ ⟨2, ![R, K]⟩ where
  updateWindowDims := [1]
  insertedWindowDims := [0]
  scatterDimsToOperandDims := [0]
  indexVectorDim := 1
  wf := wf

section Rows

variable {N K R w : Nat} (wf : ScatterDims.WF ⟨2, ![N, K]⟩ ⟨2, ![R, 1]⟩ ⟨2, ![R, K]⟩ [1] [0] [0] 1)

/-- On the scattered axis the window starts at the row's index word read signed. -/
theorem rows_start0 (idx : IVec ⟨2, ![R, 1]⟩ w) (e : Fin R) (k' : Fin K) :
    (rowDims N K R wf).start (ix2 e k') idx (0 : Fin 2) = (idx (ix2 e (0 : Fin 1))).toInt := by
  unfold ScatterDims.start
  rw [dif_pos (show (0 : Fin 2) ∈ (rowDims N K R wf).scatterDimsToOperandDims from List.mem_singleton.mpr rfl)]
  have hsi : (rowDims N K R wf).siIdx (ix2 e k')
      ⟨List.idxOf (0 : Fin 2) (rowDims N K R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis the window starts at zero. -/
theorem rows_start1 (idx : IVec ⟨2, ![R, 1]⟩ w) (e : Fin R) (k' : Fin K) :
    (rowDims N K R wf).start (ix2 e k') idx (1 : Fin 2) = 0 := by
  unfold ScatterDims.start
  rw [dif_neg (show (1 : Fin 2) ∉ (rowDims N K R wf).scatterDimsToOperandDims from
    fun h => absurd (List.mem_singleton.mp h) (by decide : ¬ (1 : Fin 2) = 0))]

/-- The scattered axis is inserted: its window coordinate is zero. -/
theorem rows_window0 (e : Fin R) (k' : Fin K) : (rowDims N K R wf).window (ix2 e k') (0 : Fin 2) = 0 := by
  unfold ScatterDims.window
  rw [dif_neg]
  intro h
  have hsk : (rowDims N K R wf).sKept = [(1 : Fin 2)] := rfl
  rw [hsk] at h
  exact absurd (List.mem_singleton.mp h) (by decide : ¬ (0 : Fin 2) = 1)

/-- On the window axis the window coordinate is the update's own column. -/
theorem rows_window1 (e : Fin R) (k' : Fin K) : (rowDims N K R wf).window (ix2 e k') (1 : Fin 2) = k'.val := by
  have hsk : (rowDims N K R wf).sKept = [(1 : Fin 2)] := rfl
  unfold ScatterDims.window
  rw [dif_pos (show (1 : Fin 2) ∈ (rowDims N K R wf).sKept from by rw [hsk]; exact List.mem_singleton.mpr rfl)]
  have hidx : List.idxOf (1 : Fin 2) (rowDims N K R wf).sKept = 0 := by rw [hsk]; decide
  simp only [hidx]
  rfl

/-- Update element `(e, k')` lands at `(r, k)` exactly when row `e`'s index word, read signed, is `r` and the
    columns agree. -/
theorem rows_resultIdx_eq_some_iff (idx : IVec ⟨2, ![R, 1]⟩ w) (e : Fin R) (k' : Fin K) (r : Fin N) (k : Fin K) :
    (rowDims N K R wf).resultIdx? (ix2 e k') idx = some (ix2 r k) ↔
      (idx (ix2 e (0 : Fin 1))).toInt = (r.val : ℤ) ∧ k' = k := by
  have hs0 := rows_start0 wf idx e k'
  have hs1 := rows_start1 wf idx e k'
  have hw0 := rows_window0 (N := N) wf e k'
  have hw1 := rows_window1 (N := N) wf e k'
  unfold ScatterDims.resultIdx?
  split
  · rename_i h
    rw [Option.some.injEq]
    constructor
    · intro hf
      have h0 := congrArg (fun q : (⟨2, ![N, K]⟩ : Shape).Idx => (q 0).val) hf
      have h1 := congrArg (fun q : (⟨2, ![N, K]⟩ : Shape).Idx => (q 1).val) hf
      have g0 := (h (0 : Fin 2)).1
      simp only [hs0, hw0] at h0 g0
      simp only [hs1, hw1] at h1
      refine ⟨?_, Fin.ext ?_⟩
      · change ((idx (ix2 e (0 : Fin 1))).toInt + ((0 : ℕ) : ℤ)).toNat = r.val at h0
        omega
      · change ((0 : ℤ) + (k'.val : ℤ)).toNat = k.val at h1
        omega
    · rintro ⟨ht, rfl⟩
      funext a
      have ha : a = (0 : Fin 2) ∨ a = (1 : Fin 2) := by
        rcases a with ⟨v, hv⟩
        have hv' : v < 2 := hv
        interval_cases v
        · exact Or.inl rfl
        · exact Or.inr rfl
      refine Fin.ext ?_
      rcases ha with rfl | rfl
      · show ((rowDims N K R wf).start (ix2 e k') idx (0 : Fin 2) + ((rowDims N K R wf).window (ix2 e k') (0 : Fin 2) : ℤ)).toNat = r.val
        rw [hs0, hw0, ht]; omega
      · show ((rowDims N K R wf).start (ix2 e k') idx (1 : Fin 2) + ((rowDims N K R wf).window (ix2 e k') (1 : Fin 2) : ℤ)).toNat = k'.val
        rw [hs1, hw1]; omega
  · rename_i h
    constructor
    · intro hf; exact absurd hf (by simp)
    · rintro ⟨ht, rfl⟩
      exfalso; apply h
      intro a
      have ha : a = (0 : Fin 2) ∨ a = (1 : Fin 2) := by
        rcases a with ⟨v, hv⟩
        have hv' : v < 2 := hv
        interval_cases v
        · exact Or.inl rfl
        · exact Or.inr rfl
      rcases ha with rfl | rfl
      · rw [hs0, hw0, ht]
        have := r.isLt
        show 0 ≤ (r.val : ℤ) + ((0 : ℕ) : ℤ) ∧ (r.val : ℤ) + ((0 : ℕ) : ℤ) < (N : ℤ)
        omega
      · rw [hs1, hw1]
        have := k'.isLt
        show 0 ≤ (0 : ℤ) + (k'.val : ℤ) ∧ (0 : ℤ) + (k'.val : ℤ) < (K : ℤ)
        omega

/-- The row-wise accumulating scatter at element `(r, k)`: the operand's element plus the sum, over the update rows
    whose index word read signed is `r`, of the update's column `k`. -/
theorem scatterAdd_rows_apply (x : (⟨2, ![N, K]⟩ : Shape).Idx → EReal) (idx : IVec ⟨2, ![R, 1]⟩ w)
    (upd : (⟨2, ![R, K]⟩ : Shape).Idx → EReal) (r : Fin N) (k : Fin K) :
    Ideal.hostScatterAdd (rowDims N K R wf) x idx upd (ix2 r k) =
      x (ix2 r k) + ∑ e ∈ Finset.univ.filter (fun e : Fin R => (idx (ix2 e (0 : Fin 1))).toInt = (r.val : ℤ)),
        upd (ix2 e k) := by
  unfold Ideal.hostScatterAdd
  congr 1
  rw [Finset.sum_filter, sum_idx2, Finset.sum_filter]
  refine Finset.sum_congr rfl fun e _ => ?_
  simp only [rows_resultIdx_eq_some_iff wf idx e _ r k]
  by_cases ht : (idx (ix2 e (0 : Fin 1))).toInt = (r.val : ℤ)
  · simp only [ht, true_and, if_true]
    rw [Finset.sum_ite_eq' Finset.univ k (fun k' => upd (ix2 e k'))]
    simp
  · simp only [ht, false_and, if_false]
    exact Finset.sum_const_zero

/-- The same for the host's accumulating scatter as a program spells it, at the exact-real instance (there it is this
    sum by definition). -/
theorem host_scatterAdd_rows_apply {φ : FTy} (x : FVec Ideal ⟨2, ![N, K]⟩ φ) (idx : IVec ⟨2, ![R, 1]⟩ w)
    (upd : FVec Ideal ⟨2, ![R, K]⟩ φ) (r : Fin N) (k : Fin K) :
    Host.scatterAdd (F := Ideal) (rowDims N K R wf) x idx upd (ix2 r k) =
      x (ix2 r k) + ∑ e ∈ Finset.univ.filter (fun e : Fin R => (idx (ix2 e (0 : Fin 1))).toInt = (r.val : ℤ)),
        upd (ix2 e k) :=
  scatterAdd_rows_apply wf x idx upd r k

end Rows

/-! ## Flat: `x.at[idx].add(upd)` for `x : [N]`, `upd : [R]`, one index per update element -/

/-- dimension numbers of an accumulating scatter into a flat `[N]` at a column of indices `[R, 1]` -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Flat

variable {N R w : Nat} (wf : ScatterDims.WF ⟨1, ![N]⟩ ⟨2, ![R, 1]⟩ ⟨1, ![R]⟩ [] [0] [0] 1)

/-- The window starts at the element's index word read signed. -/
theorem vec_start0 (idx : IVec ⟨2, ![R, 1]⟩ w) (e : Fin R) :
    (vecDims N R wf).start (ix1 e) idx (0 : Fin 1) = (idx (ix2 e (0 : Fin 1))).toInt := by
  unfold ScatterDims.start
  rw [dif_pos (show (0 : Fin 1) ∈ (vecDims N R wf).scatterDimsToOperandDims from List.mem_singleton.mpr rfl)]
  have hsi : (vecDims N R wf).siIdx (ix1 e)
      ⟨List.idxOf (0 : Fin 1) (vecDims N R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: its window coordinate is zero. -/
theorem vec_window0 (e : Fin R) : (vecDims N R wf).window (ix1 e) (0 : Fin 1) = 0 := by
  unfold ScatterDims.window
  rw [dif_neg]
  intro h
  have hsk : (vecDims N R wf).sKept = [] := rfl
  rw [hsk] at h
  exact absurd h List.not_mem_nil

/-- Update element `e` lands at `r` exactly when its index word, read signed, is `r`. -/
theorem vec_resultIdx_eq_some_iff (idx : IVec ⟨2, ![R, 1]⟩ w) (e : Fin R) (r : Fin N) :
    (vecDims N R wf).resultIdx? (ix1 e) idx = some (ix1 r) ↔ (idx (ix2 e (0 : Fin 1))).toInt = (r.val : ℤ) := by
  have hs0 := vec_start0 wf idx e
  have hw0 := vec_window0 (N := N) wf e
  unfold ScatterDims.resultIdx?
  split
  · rename_i h
    rw [Option.some.injEq]
    constructor
    · intro hf
      have h0 := congrArg (fun q : (⟨1, ![N]⟩ : Shape).Idx => (q 0).val) hf
      have g0 := (h (0 : Fin 1)).1
      simp only [hs0, hw0] at h0 g0
      change ((idx (ix2 e (0 : Fin 1))).toInt + ((0 : ℕ) : ℤ)).toNat = r.val at h0
      omega
    · intro ht
      funext a
      obtain rfl : a = 0 := Subsingleton.elim _ _
      refine Fin.ext ?_
      show ((vecDims N R wf).start (ix1 e) idx (0 : Fin 1) + ((vecDims N R wf).window (ix1 e) (0 : Fin 1) : ℤ)).toNat = r.val
      rw [hs0, hw0, ht]; omega
  · rename_i h
    constructor
    · intro hf; exact absurd hf (by simp)
    · intro ht
      exfalso; apply h
      intro a
      obtain rfl : a = 0 := Subsingleton.elim _ _
      rw [hs0, hw0, ht]
      have := r.isLt
      show 0 ≤ (r.val : ℤ) + ((0 : ℕ) : ℤ) ∧ (r.val : ℤ) + ((0 : ℕ) : ℤ) < (N : ℤ)
      omega

/-- The flat accumulating scatter at element `r`: the operand's element plus the sum of the update elements whose
    index word read signed is `r`. -/
theorem scatterAdd_vec_apply (x : (⟨1, ![N]⟩ : Shape).Idx → EReal) (idx : IVec ⟨2, ![R, 1]⟩ w)
    (upd : (⟨1, ![R]⟩ : Shape).Idx → EReal) (r : Fin N) :
    Ideal.hostScatterAdd (vecDims N R wf) x idx upd (ix1 r) =
      x (ix1 r) + ∑ e ∈ Finset.univ.filter (fun e : Fin R => (idx (ix2 e (0 : Fin 1))).toInt = (r.val : ℤ)),
        upd (ix1 e) := by
  unfold Ideal.hostScatterAdd
  congr 1
  rw [Finset.sum_filter, sum_idx1, Finset.sum_filter]
  refine Finset.sum_congr rfl fun e _ => ?_
  simp only [vec_resultIdx_eq_some_iff wf idx e r]

/-- The same for the host's accumulating scatter as a program spells it, at the exact-real instance. -/
theorem host_scatterAdd_vec_apply {φ : FTy} (x : FVec Ideal ⟨1, ![N]⟩ φ) (idx : IVec ⟨2, ![R, 1]⟩ w)
    (upd : FVec Ideal ⟨1, ![R]⟩ φ) (r : Fin N) :
    Host.scatterAdd (F := Ideal) (vecDims N R wf) x idx upd (ix1 r) =
      x (ix1 r) + ∑ e ∈ Finset.univ.filter (fun e : Fin R => (idx (ix2 e (0 : Fin 1))).toInt = (r.val : ℤ)),
        upd (ix1 e) :=
  scatterAdd_vec_apply wf x idx upd r

end Flat

end Cert.LibScatterRows
-- ==== Proof.LibScatterCount.lean ====
/-
  An accumulating integer scatter into a flat vector, read at one entry.

  The scatter takes the update elements one after another (in the order of their row-major numbers) and, for each
  whose result index lies in the operand, adds the update element to the operand's entry there; an update whose
  result index lies outside is dropped. Addition of 32-bit words is associative and commutative, so whatever the
  order, entry r of the result is the operand's entry r plus the sum of the update elements that land at r. For a
  flat operand [N] with one index per update element (a column [R, 1] of index words), update element e lands at r
  exactly when its index word, read signed, is r.
-/
import proofs.«111796_j20126216749638_2_alg».proof.Proof.LibScatterRows
import proofs.«111796_j20126216749638_2_alg».proof.Proof.LibCumsum
import Idealize.ShloMosaic.Lib.ValueIdx
import Idealize.ShloMosaic.PureOps
import Mathlib.Data.BitVec
import Mathlib.Tactic

namespace Cert.LibScatterCount

open Idealize.ShloMosaic Idealize.ShloMosaic.ValueIdx

/-- A left fold whose step adds, at the one index the step's element lands on (if any), that element's term: read at
    an index i, the fold is the start's value at i plus the sum of the terms of the elements that land on i. -/
theorem foldl_add_at {ι I : Type} [DecidableEq I] (ri : ι → Option I) (u : ι → BitVec 32)
    (stepf : (I → BitVec 32) → ι → (I → BitVec 32))
    (hstep : ∀ r n i, stepf r n i = r i + (if ri n = some i then u n else 0))
    (l : List ι) (x : I → BitVec 32) (i : I) :
    l.foldl stepf x i = x i + (l.map fun n => if ri n = some i then u n else 0).sum := by
  induction l generalizing x with
  | nil => simp
  | cons a l ih => rw [List.foldl_cons, ih, hstep, List.map_cons, List.sum_cons, add_assoc]

/-- an accumulating INTEGER scatter (body: 32-bit addition) into a flat operand [N] at a column [R,1] of indices, one
    index per update element, read at entry r: the operand's entry plus the sum of the update elements whose index
    word, read signed, is r (updates whose index falls outside the operand are dropped) -/
theorem scatter_addi_vec_apply {N R w : ℕ} (wf : ScatterDims.WF ⟨1, ![N]⟩ ⟨2, ![R, 1]⟩ ⟨1, ![R]⟩ [] [0] [0] 1)
    (x : IVec ⟨1, ![N]⟩ 32) (idx : IVec ⟨2, ![R, 1]⟩ w) (upd : IVec ⟨1, ![R]⟩ 32) (r : Fin N) :
    Host.scatter (Cert.LibScatterRows.vecDims N R wf) IntOp.addi x idx upd (ix1 r)
      = x (ix1 r) + ∑ e : Fin R, if (idx (ix2 e (0 : Fin 1))).toInt = (r.val : ℤ) then upd (ix1 e) else 0 := by
  unfold Host.scatter
  refine (foldl_add_at
    (fun n => (Cert.LibScatterRows.vecDims N R wf).resultIdx? ((⟨1, ![R]⟩ : Shape).rowMajor.symm n) idx)
    (fun n => upd ((⟨1, ![R]⟩ : Shape).rowMajor.symm n)) _ ?_ _ x (ix1 r)).trans ?_
  · intro f n i
    rcases hj : (Cert.LibScatterRows.vecDims N R wf).resultIdx? ((⟨1, ![R]⟩ : Shape).rowMajor.symm n) idx with _ | j
    · show f i = f i + if none = some i then _ else 0
      rw [if_neg (fun h => by cases h), add_zero]
    · show (if i = j then IntOp.addi (f j) _ else f i) = f i + if some j = some i then _ else 0
      by_cases hij : i = j
      · subst hij
        rw [if_pos rfl, if_pos rfl]
        rfl
      · rw [if_neg hij, if_neg (fun h => hij (Option.some.inj h).symm), add_zero]
  · refine congrArg (x (ix1 r) + ·) ?_
    rw [← Fin.sum_univ_def]
    refine (Equiv.sum_comp ((⟨1, ![R]⟩ : Shape).rowMajor.symm)
      (fun i : (⟨1, ![R]⟩ : Shape).Idx =>
        if (Cert.LibScatterRows.vecDims N R wf).resultIdx? i idx = some (ix1 r) then upd i else 0)).trans ?_
    rw [Cert.LibScatterRows.sum_idx1]
    exact Finset.sum_congr rfl fun e _ =>
      if_congr (Cert.LibScatterRows.vec_resultIdx_eq_some_iff wf idx e r) rfl rfl

end Cert.LibScatterCount
-- ==== Proof.Index.lean ====
/-
  The reference's computed start indices are the kernel's literal ones.

  From the running count of the mask (`cnt`, a word below 1025 at every cell) the reference forms, for each value `j`
  below 496, the number of cells whose count is `j` (an accumulating scatter of ones at the counts; the count 496 of the
  cells after the last set one falls outside and is dropped), and sums these numbers from the front: entry `k` is the
  number of cells whose count is at most `k`, which is the cell where the count reaches `k + 1` — the cell the kernel's
  tables name at `k`. Splitting that cell number into row and column gives the tables' entries.
-/
import proofs.«111796_j20126216749638_2_alg».proof.Proof.Mask
import proofs.«111796_j20126216749638_2_alg».proof.Proof.Tables
import proofs.«111796_j20126216749638_2_alg».proof.Proof.LibScatterRows
import proofs.«111796_j20126216749638_2_alg».proof.Proof.LibScatterCount

namespace Cert.Triu

open Idealize.ShloMosaic Idealize.ShloMosaic.ValueIdx Cert.ReferenceIdeal Cert.ReferenceIdeal.Facts₀ Cert.ReferenceIdeal.Hand

/-- the steps from a count to its scatter index: the lower bound at zero, then 496 added to a negative number -/
def keep (v : BitVec 32) : BitVec 32 :=
  Scalar.select (IntOp.cmpi .slt (IntOp.maxsi 0#32 v) 0#32) (IntOp.addi (IntOp.maxsi 0#32 v) 496#32) (IntOp.maxsi 0#32 v)

theorem scatIdx_apply (i : S1024.Idx) : scatIdx i = keep (cs1 i) := rfl

/-- on the words of the numbers up to 1024 those steps change nothing, and the word read signed is the number -/
theorem keep_small : ∀ n : Fin 1025, (keep (BitVec.ofNat 32 n.val)).toInt = (n.val : ℤ) := by
  decide +kernel

/-- Entry `j` of the scattered ones: the number of cells whose count is `j`. -/
theorem counts_apply (j : Fin 496) :
    counts (ix1 j) = BitVec.ofNat 32 (∑ p ∈ Finset.range 1024, if cnt p = j.val then 1 else 0) := by
  have hd : scatter_S496_S1024x1_S1024_n_0_0_1
      = Cert.LibScatterRows.vecDims 496 1024 scatter_S496_S1024x1_S1024_n_0_0_1_wf := rfl
  unfold counts
  rw [hd, Cert.LibScatterCount.scatter_addi_vec_apply]
  show (0#32 : BitVec 32) + _ = _
  rw [BitVec.zero_add, ← BitVec.natCast_eq_ofNat 32 (∑ p ∈ Finset.range 1024, if cnt p = j.val then 1 else 0), Nat.cast_sum,
    ← Fin.sum_univ_eq_sum_range (fun p => (((if cnt p = j.val then 1 else 0 : ℕ)) : BitVec 32)) 1024]
  refine Finset.sum_congr rfl fun e _ => ?_
  have h1 : broadcastInDim S1024x1 ![0] bcast_S1024_S1024x1_0 scatIdx (ix2 e (0 : Fin 1)) = scatIdx (ix1 e) :=
    congrArg scatIdx (funext fun a => by obtain rfl : a = 0 := Subsingleton.elim _ _; rfl)
  have hle : cnt e.val < 1025 := by have := cnt_le e.val; omega
  rw [h1, scatIdx_apply, cs1_apply, keep_small ⟨cnt e.val, hle⟩]
  show (if ((cnt e.val : ℕ) : ℤ) = (j.val : ℤ) then (1#32 : BitVec 32) else 0) = _
  by_cases h : cnt e.val = j.val
  · rw [if_pos (by exact_mod_cast h), if_pos h]; rfl
  · rw [if_neg (by exact_mod_cast h), if_neg h]; rfl

/-- Entry `k` of the second running sum: the cell the kernel's tables name at `k`. -/
theorem cs2_apply (k : Fin 496) : cs2 (ix1 k) = BitVec.ofNat 32 (pos k.val) := by
  obtain ⟨hlt, hcnt, habove, -, -⟩ := table_facts k
  have hsum := sum_cnt_le (pos k.val) k.val hlt (by rw [cnt_eq_cntF _ hlt]; exact hcnt) habove
  unfold cs2
  rw [Cert.LibCumsum.cumsum_apply (N := 496) (lo := 495) rfl _ (broadcastInDim S_ ![] bcast_S_S_ (k32 0#32)) (fun _ => rfl)]
  rw [← hsum, ← sum_sum_eq,
    ← BitVec.natCast_eq_ofNat 32 (∑ j ∈ Finset.range (k.val + 1), ∑ p ∈ Finset.range 1024, if cnt p = j then 1 else 0),
    Nat.cast_sum]
  refine Finset.sum_congr rfl fun q hq => ?_
  have hq' : q < 496 := by have := Finset.mem_range.mp hq; have := k.isLt; omega
  rw [dif_pos hq', counts_apply ⟨q, hq'⟩, BitVec.natCast_eq_ofNat]

/-- The row numbers agree. -/
theorem rows_eq : Cert.ReferenceIdeal.Hand.rowsR = Cert.KernelIdeal.Hand.rowsK := by
  funext i
  obtain ⟨k, rfl⟩ : ∃ k : Fin 496, i = ix1 k := ⟨i 0, eq_ix1 i⟩
  rw [rowsR_apply, cs2_apply, rowsK_apply]
  exact (table_facts k).2.2.2.1

/-- The column numbers agree. -/
theorem cols_eq : Cert.ReferenceIdeal.Hand.colsR = Cert.KernelIdeal.Hand.colsK := by
  funext i
  obtain ⟨k, rfl⟩ : ∃ k : Fin 496, i = ix1 k := ⟨i 0, eq_ix1 i⟩
  rw [colsR_apply, cs2_apply, colsK_apply]
  exact (table_facts k).2.2.2.2

/-- The gathers' start indices agree. -/
theorem pairs_eq : Cert.ReferenceIdeal.Hand.pairs Cert.ReferenceIdeal.Hand.rowsR Cert.ReferenceIdeal.Hand.colsR
    = Cert.KernelIdeal.Hand.pairs Cert.KernelIdeal.Hand.rowsK Cert.KernelIdeal.Hand.colsK := by
  rw [rows_eq, cols_eq]
  rfl

end Cert.Triu
-- ==== Proof.OutEq.lean ====
/-
  The two programs' results are one function of the argument: the reference's whole batched contraction is the Gram
  array, its computed start indices are the kernel's literal ones, and the gather with its appended unit axis is the same
  operation in both programs.
-/
import proofs.«111796_j20126216749638_2_alg».proof.Proof.Index
import proofs.«111796_j20126216749638_2_alg».proof.Proof.GramDot

namespace Cert.Triu

open Idealize.ShloMosaic

/-- The reference's result is the kernel's. -/
theorem out_eq (x : FVec Ideal Cert.ReferenceIdeal.S16384x32x64 .f32) :
    Cert.ReferenceIdeal.Hand.out x = Cert.KernelIdeal.Hand.out x := by
  unfold Cert.ReferenceIdeal.Hand.out Cert.KernelIdeal.Hand.out
  rw [Cert.ReferenceIdeal.Hand.dotGeneral_eq_gram, pairs_eq]
  rfl

end Cert.Triu
-- ==== Proof.lean ====
/-
  Pairwise inner products of 32 rows, for 16384 matrices at once.

  For an argument `x` of shape [16384, 32, 64] both programs return the array of shape [16384, 496, 1] whose entry
  (b, k) is the inner product `∑ d, x(b, n, d) · x(b, m, d)` of rows `n < m` of matrix `b`, the pairs (n, m) listed in
  row-major order. The kernel forms the Gram array `x xᵀ` one block of 512 matrices at a time (a batched matrix product
  into a zero accumulator; the rounding to a shorter float format in front of it is the identity on exact values) and
  gathers it at two literal tables of row and column numbers. The reference forms the Gram array by one batched
  contraction and gathers it at start indices it computes from the strictly-upper-triangular mask by a counting
  construction. The sums are finite sums in the extended reals, whose addition is commutative and associative, so the
  blocking and the order of summation do not matter and no finiteness of the argument is used. What has to be shown
  is that the computed start indices are the literal ones: entry `k` of the second running sum is the number of cells
  of the 32 × 32 square, read row-major, up to which fewer than `k + 1` cells lie above the diagonal, and that is the
  cell at which the `(k + 1)`-th such cell sits — the cell the tables name at `k`.

  The three frame claims: the two kernel programs by their generated frame proofs, the reference by its run with the
  result dropped. The idealization rewrote nothing, so its claim is trivial.
-/
import proofs.«111796_j20126216749638_2_alg».proof.Defs
import proofs.«111796_j20126216749638_2_alg».proof.Proof.Gen.Kernel
import proofs.«111796_j20126216749638_2_alg».proof.Proof.Gen.Kernel.Frame
import proofs.«111796_j20126216749638_2_alg».proof.Proof.Gen.KernelIdeal
import proofs.«111796_j20126216749638_2_alg».proof.Proof.Gen.KernelIdeal.Frame
import proofs.«111796_j20126216749638_2_alg».proof.Proof.Gen.ReferenceIdeal
import proofs.«111796_j20126216749638_2_alg».proof.Proof.Gen.Pre_finite_inputs
import proofs.«111796_j20126216749638_2_alg».proof.Proof.KernelRun
import proofs.«111796_j20126216749638_2_alg».proof.Proof.RefRun
import proofs.«111796_j20126216749638_2_alg».proof.Proof.OutEq

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Hand.run m ρ)

/-- From memories that agree on the argument the two programs end at one result: the kernel's result function of the
    argument, which the reference's result function equals. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [hagree c]
  exact Cert.Triu.out_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
